-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128 : Shape := ⟨3, ![16, 512, 128]⟩
abbrev S16x512x512 : Shape := ⟨3, ![16, 512, 512]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S16x512x128 : S_.BroadcastsInDim S16x512x128 (![] : Fin 0 → Fin S16x512x128.rank)
  reducesTo_S16x512x128_S_d0_1_2 : S16x512x128.ReducesTo [0, 1, 2] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x512x128 .f32) (main_arg1 : FVec F S16x512x512 .f32) (main_arg2 : FVec F S128x64 .f32) (main_arg3 : FVec F S64 .f32) (main_arg4 : FVec F S64x64 .f32) (main_arg5 : FVec F S64 .f32) : IVec S_ 1 :=
  let main_v0 : FVec F S16x512x128 .f32 := Host.absf main_arg0
  let main_cst : FVec F S_ .f32 := constant S_ .f32 0x7F800000#32
  let main_v1 : FVec F S16x512x128 .f32 := broadcastInDim S16x512x128 ![] bcast_S_S16x512x128 main_cst
  let main_v2 : IVec S16x512x128 1 := cmpf .olt main_v0 main_v1
  let main_c : IVec S_ 1 := constantI S_ 1 1#1
  let main_v3 : IVec S_ 1 := (fun x v => Host.reduce IntOp.andi x v reducesTo_S16x512x128_S_d0_1_2 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x512x128 : Shape := ⟨3, ![16, 512, 128]⟩
abbrev S16x512x512 : Shape := ⟨3, ![16, 512, 512]⟩
abbrev S128x64 : Shape := ⟨2, ![128, 64]⟩
abbrev S64 : Shape := ⟨1, ![64]⟩
abbrev S64x64 : Shape := ⟨2, ![64, 64]⟩
abbrev S16x512x64 : Shape := ⟨3, ![16, 512, 64]⟩
abbrev S8x512x512 : Shape := ⟨3, ![8, 512, 512]⟩
abbrev S8x512x128 : Shape := ⟨3, ![8, 512, 128]⟩
abbrev S8x512x64 : Shape := ⟨3, ![8, 512, 64]⟩
abbrev S64x1 : Shape := ⟨2, ![64, 1]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S1x512x128 : Shape := ⟨3, ![1, 512, 128]⟩
abbrev S512x128 : Shape := ⟨2, ![512, 128]⟩
abbrev S64x512 : Shape := ⟨2, ![64, 512]⟩
abbrev S512x64 : Shape := ⟨2, ![512, 64]⟩
abbrev S1x512x64 : Shape := ⟨3, ![1, 512, 64]⟩

abbrev nBuf : Space → Nat
  | .hbm => 7
  | .vmem => 10
  | .smem => 0
  | _ => 0

abbrev bufTy : (tb : Table) → Fin (tcTables nBuf tb) → BufTy
  | .hbm, ⟨0, _⟩ => ⟨S16x512x128, .f32⟩
  | .hbm, ⟨1, _⟩ => ⟨S16x512x512, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S16x512x64, .f32⟩
  | .local _ .vmem, ⟨0, _⟩ => ⟨S8x512x512, .f32⟩
  | .local _ .vmem, ⟨1, _⟩ => ⟨S8x512x512, .f32⟩
  | .local _ .vmem, ⟨2, _⟩ => ⟨S8x512x128, .f32⟩
  | .local _ .vmem, ⟨3, _⟩ => ⟨S8x512x128, .f32⟩
  | .local _ .vmem, ⟨4, _⟩ => ⟨S128x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S8x512x64, .f32⟩
  | .local _ .vmem, ⟨9, _⟩ => ⟨S8x512x64, .f32⟩
  | _, _ => ⟨S16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S64x1 : S64.ShapeCasts S64x1
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512x512_S1x512x512_1_0_0 : ∀ a, (![1, 0, 0] : Fin 3 → Nat) a + S1x512x512.size a ≤ S8x512x512.size a
  inb_S8x512x512_S1x512x512_2_0_0 : ∀ a, (![2, 0, 0] : Fin 3 → Nat) a + S1x512x512.size a ≤ S8x512x512.size a
  inb_S8x512x512_S1x512x512_3_0_0 : ∀ a, (![3, 0, 0] : Fin 3 → Nat) a + S1x512x512.size a ≤ S8x512x512.size a
  inb_S8x512x512_S1x512x512_4_0_0 : ∀ a, (![4, 0, 0] : Fin 3 → Nat) a + S1x512x512.size a ≤ S8x512x512.size a
  inb_S8x512x512_S1x512x512_5_0_0 : ∀ a, (![5, 0, 0] : Fin 3 → Nat) a + S1x512x512.size a ≤ S8x512x512.size a
  inb_S8x512x512_S1x512x512_6_0_0 : ∀ a, (![6, 0, 0] : Fin 3 → Nat) a + S1x512x512.size a ≤ S8x512x512.size a
  inb_S8x512x512_S1x512x512_7_0_0 : ∀ a, (![7, 0, 0] : Fin 3 → Nat) a + S1x512x512.size a ≤ S8x512x512.size a
  reduces_S512x512_S512 : S512x512.Reduces [0] S512
  shapeCasts_S512_S1x512 : S512.ShapeCasts S1x512
  inb_S8x512x128_S1x512x128_0_0_0 : ∀ a, (![0, 0, 0] : Fin 3 → Nat) a + S1x512x128.size a ≤ S8x512x128.size a
  h_S1x512x128 : 0 < S1x512x128.numel
  shapeCasts_S1x512x128_S512x128 : S1x512x128.ShapeCasts S512x128
  inb_S8x512x128_S1x512x128_1_0_0 : ∀ a, (![1, 0, 0] : Fin 3 → Nat) a + S1x512x128.size a ≤ S8x512x128.size a
  inb_S8x512x128_S1x512x128_2_0_0 : ∀ a, (![2, 0, 0] : Fin 3 → Nat) a + S1x512x128.size a ≤ S8x512x128.size a
  inb_S8x512x128_S1x512x128_3_0_0 : ∀ a, (![3, 0, 0] : Fin 3 → Nat) a + S1x512x128.size a ≤ S8x512x128.size a
  inb_S8x512x128_S1x512x128_4_0_0 : ∀ a, (![4, 0, 0] : Fin 3 → Nat) a + S1x512x128.size a ≤ S8x512x128.size a
  inb_S8x512x128_S1x512x128_5_0_0 : ∀ a, (![5, 0, 0] : Fin 3 → Nat) a + S1x512x128.size a ≤ S8x512x128.size a
  inb_S8x512x128_S1x512x128_6_0_0 : ∀ a, (![6, 0, 0] : Fin 3 → Nat) a + S1x512x128.size a ≤ S8x512x128.size a
  inb_S8x512x128_S1x512x128_7_0_0 : ∀ a, (![7, 0, 0] : Fin 3 → Nat) a + S1x512x128.size a ≤ S8x512x128.size a
  broadcasts_S1x512_S64x512 : S1x512.Broadcasts S64x512
  broadcasts_S64x1_S64x512 : S64x1.Broadcasts S64x512
  transposes_S64x512_p1_0_S512x64 : S64x512.Transposes [1, 0] S512x64
  inb_S8x512x64_S1x512x64_0_0_0 : ∀ a, (![0, 0, 0] : Fin 3 → Nat) a + S1x512x64.size a ≤ S8x512x64.size a
  h_S1x512x64 : 0 < S1x512x64.numel
  shapeCasts_S1x512x64_S512x64 : S1x512x64.ShapeCasts S512x64
  shapeCasts_S512x64_S1x512x64 : S512x64.ShapeCasts S1x512x64
  inb_S8x512x64_S1x512x64_1_0_0 : ∀ a, (![1, 0, 0] : Fin 3 → Nat) a + S1x512x64.size a ≤ S8x512x64.size a
  inb_S8x512x64_S1x512x64_2_0_0 : ∀ a, (![2, 0, 0] : Fin 3 → Nat) a + S1x512x64.size a ≤ S8x512x64.size a
  inb_S8x512x64_S1x512x64_3_0_0 : ∀ a, (![3, 0, 0] : Fin 3 → Nat) a + S1x512x64.size a ≤ S8x512x64.size a
  inb_S8x512x64_S1x512x64_4_0_0 : ∀ a, (![4, 0, 0] : Fin 3 → Nat) a + S1x512x64.size a ≤ S8x512x64.size a
  inb_S8x512x64_S1x512x64_5_0_0 : ∀ a, (![5, 0, 0] : Fin 3 → Nat) a + S1x512x64.size a ≤ S8x512x64.size a
  inb_S8x512x64_S1x512x64_6_0_0 : ∀ a, (![6, 0, 0] : Fin 3 → Nat) a + S1x512x64.size a ≤ S8x512x64.size a
  inb_S8x512x64_S1x512x64_7_0_0 : ∀ a, (![7, 0, 0] : Fin 3 → Nat) a + S1x512x64.size a ≤ S8x512x64.size a
  dot_S128x64_S512x128_S64x512_0_1_1_0_n_n_wf : DotDims.WF S128x64 S512x128 S64x512 [0] [1] [1] [0] [] []
  dot_S64x512_S512x512_S64x512_1_0_0_1_n_n_wf : DotDims.WF S64x512 S512x512 S64x512 [1] [0] [0] [1] [] []
  dot_S64x64_S64x512_S64x512_0_0_1_1_n_n_wf : DotDims.WF S64x64 S64x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S16x512x512.size a
  hwx0_0 : ∀ i : grid0.Coords, EltTy.bits .f32 = 32 ∨ (Rect.block (s := S16x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S16x512x128.size a
  hwx0_1 : ∀ i : grid0.Coords, EltTy.bits .f32 = 32 ∨ (Rect.block (s := S16x512x128) S8x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512x64.size a ≤ S16x512x64.size a
  hwx0_6 : ∀ i : grid0.Coords, EltTy.bits .f32 = 32 ∨ (Rect.block (s := S16x512x64) S8x512x64.size (cc0_transform_6 i) (hinb0_6 i)).WholeWords (EltTy.packing .f32)

variable [Facts₀]

def dot_S128x64_S512x128_S64x512_0_1_1_0_n_n : DotDims S128x64 S512x128 S64x512 where
  lhsContracting := [0]
  rhsContracting := [1]
  lhsNonContracting := [1]
  rhsNonContracting := [0]
  lhsBatch := []
  rhsBatch := []
  wf := dot_S128x64_S512x128_S64x512_0_1_1_0_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x64_S64x512_S64x512_0_0_1_1_n_n : DotDims S64x64 S64x512 S64x512 where
  lhsContracting := [0]
  rhsContracting := [0]
  lhsNonContracting := [1]
  rhsNonContracting := [1]
  lhsBatch := []
  rhsBatch := []
  wf := dot_S64x64_S64x512_S64x512_0_0_1_1_n_n_wf

abbrev win0_0 : Pipeline.Window sig grid0 :=
  Pipeline.Window.ofSpec (Memref.whole main_arg1) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x512x128 : Shape := ⟨3, ![16, 512, 128]⟩
abbrev S16x512x512 : Shape := ⟨3, ![16, 512, 512]⟩
abbrev S128x64 : Shape := ⟨2, ![128, 64]⟩
abbrev S64 : Shape := ⟨1, ![64]⟩
abbrev S64x64 : Shape := ⟨2, ![64, 64]⟩
abbrev S16x512x64 : Shape := ⟨3, ![16, 512, 64]⟩
abbrev S_ : Shape := ⟨0, ![]⟩
abbrev S16x512 : Shape := ⟨2, ![16, 512]⟩
abbrev S16x512x1 : Shape := ⟨3, ![16, 512, 1]⟩
abbrev S16x1x512 : Shape := ⟨3, ![16, 1, 512]⟩
abbrev S1x1x64 : Shape := ⟨3, ![1, 1, 64]⟩

abbrev nBuf : Space → Nat
  | .hbm => 56
  | .vmem => 0
  | .smem => 0
  | _ => 0

abbrev bufTy : (tb : Table) → Fin (tcTables nBuf tb) → BufTy
  | .hbm, ⟨0, _⟩ => ⟨S16x512x128, .f32⟩
  | .hbm, ⟨1, _⟩ => ⟨S16x512x512, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S16x512x64, .f32⟩
  | .hbm, ⟨7, _⟩ => ⟨S16x512x512, .f32⟩
  | .hbm, ⟨8, _⟩ => ⟨S_, .f32⟩
  | .hbm, ⟨9, _⟩ => ⟨S16x512, .f32⟩
  | .hbm, ⟨10, _⟩ => ⟨S_, .f32⟩
  | .hbm, ⟨11, _⟩ => ⟨S16x512, .f32⟩
  | .hbm, ⟨12, _⟩ => ⟨S16x512, .i1⟩
  | .hbm, ⟨13, _⟩ => ⟨S16x512, .f32⟩
  | .hbm, ⟨14, _⟩ => ⟨S_, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512x1, .f32⟩
  | .hbm, ⟨19, _⟩ => ⟨S16x512x512, .f32⟩
  | .hbm, ⟨20, _⟩ => ⟨S16x512x512, .f32⟩
  | .hbm, ⟨21, _⟩ => ⟨S16x1x512, .f32⟩
  | .hbm, ⟨22, _⟩ => ⟨S16x512x512, .f32⟩
  | .hbm, ⟨23, _⟩ => ⟨S16x512x512, .f32⟩
  | .hbm, ⟨24, _⟩ => ⟨S16x512x64, .f32⟩
  | .hbm, ⟨25, _⟩ => ⟨S1x1x64, .f32⟩
  | .hbm, ⟨26, _⟩ => ⟨S16x512x64, .f32⟩
  | .hbm, ⟨27, _⟩ => ⟨S16x512x64, .f32⟩
  | .hbm, ⟨28, _⟩ => ⟨S_, .f32⟩
  | .hbm, ⟨29, _⟩ => ⟨S16x512x64, .f32⟩
  | .hbm, ⟨30, _⟩ => ⟨S16x512x64, .f32⟩
  | .hbm, ⟨31, _⟩ => ⟨S16x512x64, .f32⟩
  | .hbm, ⟨32, _⟩ => ⟨S16x512x512, .f32⟩
  | .hbm, ⟨33, _⟩ => ⟨S_, .f32⟩
  | .hbm, ⟨34, _⟩ => ⟨S16x512, .f32⟩
  | .hbm, ⟨35, _⟩ => ⟨S_, .f32⟩
  | .hbm, ⟨36, _⟩ => ⟨S16x512, .f32⟩
  | .hbm, ⟨37, _⟩ => ⟨S16x512, .i1⟩
  | .hbm, ⟨38, _⟩ => ⟨S16x512, .f32⟩
  | .hbm, ⟨39, _⟩ => ⟨S_, .f32⟩
  | .hbm, ⟨40, _⟩ => ⟨S_, .f32⟩
  | .hbm, ⟨41, _⟩ => ⟨S16x512, .f32⟩
  | .hbm, ⟨42, _⟩ => ⟨S16x512, .f32⟩
  | .hbm, ⟨43, _⟩ => ⟨S16x512x1, .f32⟩
  | .hbm, ⟨44, _⟩ => ⟨S16x512x512, .f32⟩
  | .hbm, ⟨45, _⟩ => ⟨S16x512x512, .f32⟩
  | .hbm, ⟨46, _⟩ => ⟨S16x1x512, .f32⟩
  | .hbm, ⟨47, _⟩ => ⟨S16x512x512, .f32⟩
  | .hbm, ⟨48, _⟩ => ⟨S16x512x512, .f32⟩
  | .hbm, ⟨49, _⟩ => ⟨S16x512x64, .f32⟩
  | .hbm, ⟨50, _⟩ => ⟨S1x1x64, .f32⟩
  | .hbm, ⟨51, _⟩ => ⟨S16x512x64, .f32⟩
  | .hbm, ⟨52, _⟩ => ⟨S16x512x64, .f32⟩
  | .hbm, ⟨53, _⟩ => ⟨S_, .f32⟩
  | .hbm, ⟨54, _⟩ => ⟨S16x512x64, .f32⟩
  | .hbm, ⟨55, _⟩ => ⟨S16x512x64, .f32⟩
  | _, _ => ⟨S16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_call2_v0 : Ref sig .tc := ⟨.hbm, 40, rfl⟩
abbrev main_call2_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call3_cst : Ref sig .tc := ⟨.hbm, 53, rfl⟩
abbrev main_call3_v0 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  transposes_S16x512x512_S16x512x512_0_2_1 : S16x512x512.Transposes [0, 2, 1] S16x512x512
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S16x512_S16x1x512_0_2 : S16x512.BroadcastsInDim S16x1x512 (![0, 2] : Fin 2 → Fin S16x1x512.rank)
  bcast_S16x1x512_S16x512x512_0_1_2 : S16x1x512.BroadcastsInDim S16x512x512 (![0, 1, 2] : Fin 3 → Fin S16x512x512.rank)
  bcast_S64_S1x1x64_2 : S64.BroadcastsInDim S1x1x64 (![2] : Fin 1 → Fin S1x1x64.rank)
  bcast_S1x1x64_S16x512x64_0_1_2 : S1x1x64.BroadcastsInDim S16x512x64 (![0, 1, 2] : Fin 3 → Fin S16x512x64.rank)
  bcast_S_S16x512x64 : S_.BroadcastsInDim S16x512x64 (![] : Fin 0 → Fin S16x512x64.rank)
  dot_S16x512x128_S128x64_S16x512x64_2_0_01_1_n_n_wf : DotDims.WF S16x512x128 S128x64 S16x512x64 [2] [0] [0, 1] [1] [] []
  dot_S16x512x512_S16x512x64_S16x512x64_2_1_1_2_0_0_wf : DotDims.WF S16x512x512 S16x512x64 S16x512x64 [2] [1] [1] [2] [0] [0]
  dot_S16x512x64_S64x64_S16x512x64_2_0_01_1_n_n_wf : DotDims.WF S16x512x64 S64x64 S16x512x64 [2] [0] [0, 1] [1] [] []

variable [Facts₀]

def dot_S16x512x128_S128x64_S16x512x64_2_0_01_1_n_n : DotDims S16x512x128 S128x64 S16x512x64 where
  lhsContracting := [2]
  rhsContracting := [0]
  lhsNonContracting := [0, 1]
  rhsNonContracting := [1]
  lhsBatch := []
  rhsBatch := []
  wf := dot_S16x512x128_S128x64_S16x512x64_2_0_01_1_n_n_wf
def dot_S16x512x512_S16x512x64_S16x512x64_2_1_1_2_0_0 : DotDims S16x512x512 S16x512x64 S16x512x64 where
  lhsContracting := [2]
  rhsContracting := [1]
  lhsNonContracting := [1]
  rhsNonContracting := [2]
  lhsBatch := [0]
  rhsBatch := [0]
  wf := dot_S16x512x512_S16x512x64_S16x512x64_2_1_1_2_0_0_wf
def dot_S16x512x64_S64x64_S16x512x64_2_0_01_1_n_n : DotDims S16x512x64 S64x64 S16x512x64 where
  lhsContracting := [2]
  rhsContracting := [0]
  lhsNonContracting := [0, 1]
  rhsNonContracting := [1]
  lhsBatch := []
  rhsBatch := []
  wf := dot_S16x512x64_S64x64_S16x512x64_2_0_01_1_n_n_wf

class Facts : Prop extends Facts₀ where

variable [Facts]
-- ==== Proof.PerGraph.lean ====
/-
  One graph's share of the kernel body, as ONE function of that graph's adjacency block and feature block and of the four
  weight arrays.

  A grid point handles eight graphs. For each of them the body computes, in the transposed layout (features × nodes):
  the column sums of the adjacency (deg), their inverse square roots (dinv, zero where the sum is not positive), the
  projection (x W1)ᵀ, then twice the step "scale the columns by dinv, multiply by the adjacency, scale the columns by
  dinv again, add the bias down the rows, clamp below at zero" with the second projection W2ᵀ · in between, and
  stores the transpose. The eight computations are the same operations in the same order; they differ only in which slice of
  the two big blocks they read. This module names that common function and shows each of the eight stored values is
  it, at the slices of the graph in question. Nothing here depends on what the float operations are.
-/
import proofs.«136823_g57208964383454_cont_9to1_m_350_27_alg».proof.Proof.Gen.KernelIdeal.Frame

noncomputable section

namespace Cert.KernelIdeal.Graph

open Cert.KernelIdeal Cert.KernelIdeal.Gen Idealize.ShloMosaic Idealize.SL.Sem

variable {F : FTy → Type} [FloatOps F]

/-- The adjacency of one graph as a square matrix: the leading unit axis of its block dropped. -/
def adj (a : Vec F S1x512x512 .f32) : FVec F S512x512 .f32 :=
  shapeCast S512x512 a shapeCasts_S1x512x512_S512x512

/-- dinv as a row: the column sums of the adjacency, and where a sum is positive its inverse square root, else zero. -/
def dinvRow (a2 : FVec F S512x512 .f32) : FVec F S1x512 .f32 :=
  select
    (cmpf .ogt (shapeCast S1x512 (multiReduction .add [0] S512 a2 0x00000000#32 reduces_S512x512_S512 (.inl rfl) rfl) shapeCasts_S512_S1x512)
      (broadcast S1x512 (Scalar.ofBits .f32 0x00000000#32)))
    (rsqrt (shapeCast S1x512 (multiReduction .add [0] S512 a2 0x00000000#32 reduces_S512x512_S512 (.inl rfl) rfl) shapeCasts_S512_S1x512))
    (broadcast S1x512 (Scalar.ofBits .f32 0x00000000#32))

/-- The first projection, transposed: entry (f, n) is the sum over d of W1 (d, f) · x (n, d). -/
def projT (w1 : FVec F S128x64 .bf16) (x : Vec F S1x512x128 .f32) : FVec F S64x512 .f32 :=
  matmul dot_S128x64_S512x128_S64x512_0_1_1_0_n_n none w1
    (truncf .bf16 (shapeCast S512x128 x shapeCasts_S1x512x128_S512x128) bitsLt_bf16_f32) (constant S64x512 .f32 0x00000000#32)

/-- Scale the columns by dinv, then multiply by the adjacency: entry (f, c) is the sum over n of (v (f, n) · dinv n) · A (n, c). -/
def spread (d : FVec F S1x512 .f32) (ab : FVec F S512x512 .bf16) (v : FVec F S64x512 .f32) : FVec F S64x512 .f32 :=
  matmul dot_S64x512_S512x512_S64x512_1_0_0_1_n_n none
    (truncf .bf16 (mulf v (broadcastTo S64x512 d broadcasts_S1x512_S64x512)) bitsLt_bf16_f32) ab (constant S64x512 .f32 0x00000000#32)

/-- Scale the columns by dinv, add the bias down the rows, clamp below at zero. -/
def settle (bc : FVec F S64x1 .f32) (d : FVec F S1x512 .f32) (t : FVec F S64x512 .f32) : FVec F S64x512 .f32 :=
  maximumf (addf (mulf t (broadcastTo S64x512 d broadcasts_S1x512_S64x512)) (broadcastTo S64x512 bc broadcasts_S64x1_S64x512))
    (broadcast S64x512 (Scalar.ofBits .f32 0x00000000#32))

/-- The second projection, transposed: entry (g, c) is the sum over f of W2 (f, g) · h (f, c). -/
def mixT (w2 : FVec F S64x64 .bf16) (h : FVec F S64x512 .f32) : FVec F S64x512 .f32 :=
  matmul dot_S64x64_S64x512_S64x512_0_0_1_1_n_n none w2 (truncf .bf16 h bitsLt_bf16_f32) (constant S64x512 .f32 0x00000000#32)

/-- Back to nodes × features, with the block's leading unit axis. -/
def emit (o : FVec F S64x512 .f32) : FVec F S1x512x64 .f32 :=
  shapeCast S1x512x64 (transpose S512x64 [1, 0] o transposes_S64x512_p1_0_S512x64) shapeCasts_S512x64_S1x512x64

/-- One graph's result block from its adjacency block a, its feature block x and the weights. -/
def graphOut (a : Vec F S1x512x512 .f32) (x : Vec F S1x512x128 .f32) (w1 : Vec F S128x64 .f32) (b1 : Vec F S64 .f32)
    (w2 : Vec F S64x64 .f32) (b2 : Vec F S64 .f32) : FVec F S1x512x64 .f32 :=
  emit (settle (shapeCast S64x1 b2 shapeCasts_S64_S64x1) (dinvRow (adj a))
    (spread (dinvRow (adj a)) (truncf .bf16 (adj a) bitsLt_bf16_f32)
      (mixT (truncf .bf16 w2 bitsLt_bf16_f32)
        (settle (shapeCast S64x1 b1 shapeCasts_S64_S64x1) (dinvRow (adj a))
          (spread (dinvRow (adj a)) (truncf .bf16 (adj a) bitsLt_bf16_f32) (projT (truncf .bf16 w1 bitsLt_bf16_f32) x))))))

/-- What a grid point leaves in the output block: eight pieces, the piece of graph g (through the rectangle of rows g of the
    block's leading axis) carrying the common function at graph g's slices of the two big input blocks. -/
theorem out_eq (x0 : Vec F S8x512x512 .f32) (x1 : Vec F S8x512x128 .f32) (x2 : Vec F S128x64 .f32) (x3 : Vec F S64 .f32)
    (x4 : Vec F S64x64 .f32) (x5 : Vec F S64 .f32) :
    out0_6 x0 x1 x2 x3 x4 x5 = View.canon [
      ⟨r0_26, graphOut (View.ld x0 r0_10) (View.ld x1 r0_18) (View.ld x2 r0_0) (View.ld x3 r0_2) (View.ld x4 r0_1) (View.ld x5 r0_2)⟩,
      ⟨r0_25, graphOut (View.ld x0 r0_9) (View.ld x1 r0_17) (View.ld x2 r0_0) (View.ld x3 r0_2) (View.ld x4 r0_1) (View.ld x5 r0_2)⟩,
      ⟨r0_24, graphOut (View.ld x0 r0_8) (View.ld x1 r0_16) (View.ld x2 r0_0) (View.ld x3 r0_2) (View.ld x4 r0_1) (View.ld x5 r0_2)⟩,
      ⟨r0_23, graphOut (View.ld x0 r0_7) (View.ld x1 r0_15) (View.ld x2 r0_0) (View.ld x3 r0_2) (View.ld x4 r0_1) (View.ld x5 r0_2)⟩,
      ⟨r0_22, graphOut (View.ld x0 r0_6) (View.ld x1 r0_14) (View.ld x2 r0_0) (View.ld x3 r0_2) (View.ld x4 r0_1) (View.ld x5 r0_2)⟩,
      ⟨r0_21, graphOut (View.ld x0 r0_5) (View.ld x1 r0_13) (View.ld x2 r0_0) (View.ld x3 r0_2) (View.ld x4 r0_1) (View.ld x5 r0_2)⟩,
      ⟨r0_20, graphOut (View.ld x0 r0_4) (View.ld x1 r0_12) (View.ld x2 r0_0) (View.ld x3 r0_2) (View.ld x4 r0_1) (View.ld x5 r0_2)⟩,
      ⟨r0_19, graphOut (View.ld x0 r0_3) (View.ld x1 r0_11) (View.ld x2 r0_0) (View.ld x3 r0_2) (View.ld x4 r0_1) (View.ld x5 r0_2)⟩] := rfl

end Cert.KernelIdeal.Graph

end
-- ==== Proof.LibMoment.lean ====
import Idealize.ShloMosaic.PureOps.Ideal
import Mathlib.Data.EReal.Basic
import Mathlib.Data.EReal.Operations
import Mathlib.Data.EReal.Inv
import Mathlib.Algebra.BigOperators.Group.Finset.Basic
import Mathlib.Tactic

/-!
# Finite extended reals and the second-moment law

`IsReal x` says that an extended real is a real number. The finite values are closed under
the ring operations, `max`, finite sums, division by a nonzero real and the reciprocal square
root of a positive value. On finite values every operation is the operation of `ℝ`, so an
identity between extended reals reduces to the identity between the real witnesses.

The moment law: for `n` finite values `y r` with mean `μ = (∑ y) / n` and a finite scale `s`,
the mean of the squared deviations from `s · μ` is

  `(∑ (y r - s μ)²) / n = (∑ y r²) / n - μ² (2 s - s²)`,

because `∑ (y r - t)² = ∑ y r² - 2 t ∑ y r + n t²` and `∑ y r = n μ`.
-/

noncomputable section

namespace Cert.LibMoment

open Idealize.ShloMosaic
open scoped BigOperators

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, EReal.coe_zero.symm⟩

theorem isReal_one : IsReal (1 : EReal) := ⟨1, rfl⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A value that is neither infinity is a real number. -/
theorem isReal_of_ne {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ :=
  ⟨fun h => ⟨h.ne_top, h.ne_bot⟩, fun h => isReal_of_ne h.1 h.2⟩

/-- A value whose absolute value `max x (-x)` is below `⊤` is a real number. -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  refine isReal_of_ne h1.ne ?_
  intro hx
  rw [hx, EReal.neg_bot] at h2
  exact lt_irrefl _ h2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of reals commutes with a finite sum. -/
theorem coe_finset_sum {α : Type*} (s : Finset α) (f : α → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A finite sum of real numbers is a real number. -/
theorem IsReal.sum {α : Type*} (s : Finset α) (f : α → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add
      (ih (fun i hi => h i (Finset.mem_insert_of_mem hi)))

theorem IsReal.sum' {α : Type*} (s : Finset α) (f : α → EReal) (h : ∀ i, IsReal (f i)) :
    IsReal (∑ i ∈ s, f i) :=
  IsReal.sum s f (fun i _ => h i)

theorem IsReal.sum_univ {α : Type*} [Fintype α] (f : α → EReal) (h : ∀ i, IsReal (f i)) :
    IsReal (∑ i, f i) :=
  IsReal.sum Finset.univ f (fun i _ => h i)

/-- Division of a real number by a nonzero real is a real number. -/
theorem IsReal.div_coe {x : EReal} (hx : IsReal x) {n : ℝ} (hn : n ≠ 0) :
    IsReal (Ideal.div x (n : EReal)) := by
  rw [Ideal.div_coe hn]
  exact hx.mul (isReal_coe _)

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- Sum of squared deviations from a constant `t`, over the reals:
    `∑ (a r - t)² = ∑ a r² - 2 t ∑ a r + n t²`. -/
theorem sum_sq_dev {ι : Type} [Fintype ι] (a : ι → ℝ) (t : ℝ) :
    ∑ r, (a r - t) * (a r - t)
      = (∑ r, a r * a r) - 2 * t * (∑ r, a r) + (Fintype.card ι : ℝ) * (t * t) := by
  have h : ∀ r, (a r - t) * (a r - t) = a r * a r - 2 * t * a r + t * t := fun r => by ring
  simp only [h, Finset.sum_add_distrib, Finset.sum_sub_distrib, ← Finset.mul_sum,
    Finset.sum_const, Finset.card_univ, nsmul_eq_mul]
  ring

/-- The moment law over the reals. -/
theorem var_eq_real {ι : Type} [Fintype ι] (n : ℝ) (hn : n = (Fintype.card ι : ℝ)) (hn0 : n ≠ 0)
    (a : ι → ℝ) (m : ℝ) :
    (∑ r, (a r - m * ((∑ r, a r) * (1 / n))) * (a r - m * ((∑ r, a r) * (1 / n)))) * (1 / n)
      = (∑ r, a r * a r) * (1 / n)
        - ((∑ r, a r) * (1 / n)) * ((∑ r, a r) * (1 / n)) * (2 * m - m * m) := by
  rw [sum_sq_dev, ← hn]
  field_simp
  ring

/-- THE MOMENT LAW: the mean of the squared deviations from `ms · mean` is the mean of the
    squares minus `mean² · (2 ms - ms²)`. -/
theorem var_eq {ι : Type} [Fintype ι] (n : ℝ) (hn : n = (Fintype.card ι : ℝ))
    (hpos : 0 < Fintype.card ι)
    (y : ι → EReal) (hy : ∀ r, IsReal (y r)) (ms : EReal) (hms : IsReal ms) :
    Ideal.div (∑ r, (y r - ms * Ideal.div (∑ r, y r) (n : EReal))
        * (y r - ms * Ideal.div (∑ r, y r) (n : EReal))) (n : EReal)
      = Ideal.div (∑ r, y r * y r) (n : EReal)
        - (Ideal.div (∑ r, y r) (n : EReal) * Ideal.div (∑ r, y r) (n : EReal))
          * (((2 : ℝ) : EReal) * ms - ms * ms) := by
  choose a ha using hy
  obtain ⟨m, rfl⟩ := hms
  have hy' : y = fun r => ((a r : ℝ) : EReal) := funext ha
  subst hy'
  have hn0 : n ≠ 0 := by
    rw [hn]
    exact_mod_cast hpos.ne'
  simp only [Ideal.div_coe hn0, coe_finset_sum, ← EReal.coe_mul, ← EReal.coe_sub]
  rw [EReal.coe_eq_coe_iff]
  exact var_eq_real n hn hn0 a m

end Cert.LibMoment
-- ==== Proof.Spec.lean ====
/-
  Two arrangements of a graph-convolution layer on the extended reals, and the law that joins them.

  For one graph with adjacency A (rows r, columns c), the degree of node c is the column sum deg c = Σ_r A r c, and
  dinv c is deg c to the power -1/2 where deg c is positive and zero elsewhere. A layer takes node features v and a bias b.

  * The feature-major arrangement (features × nodes) scales the columns by dinv, multiplies by A, scales the columns by
    dinv again:  max ((Σ_n (v f n · dinv n) · A n c) · dinv c + b f) 0.
  * The node-major arrangement (nodes × features) builds the normalised adjacency first:
    max ((Σ_r ((dinv c · A r c) · dinv r) · v r f) + b f) 0.

  They agree when every quantity is a real number: the common factor dinv c comes out of the sum, which on the extended
  reals is only valid away from the infinities. The projections between layers differ only in the order of the two factors
  of each product, which is harmless everywhere. Over abstract finite index types; library imports only, plus the
  real-number closure lemmas.
-/
import Idealize.ShloMosaic.PureOps.Ideal
import proofs.«136823_g57208964383454_cont_9to1_m_350_27_alg».proof.Proof.LibMoment

noncomputable section

namespace Cert.GcnSpec

open Idealize.ShloMosaic Cert.LibMoment
open scoped BigOperators

variable {ι δ η κ : Type} [Fintype ι] [Fintype δ] [Fintype η] [Fintype κ]

/-- The degree of node c: the sum of column c of the adjacency. -/
def deg (A : ι → ι → EReal) (c : ι) : EReal := ∑ r, A r c

/-- deg c to the power -1/2 where deg c is positive, zero elsewhere. -/
def dinv (A : ι → ι → EReal) (c : ι) : EReal :=
  Scalar.select (Ideal.cmp .ogt (deg A c) 0) (Ideal.rsqrt (deg A c)) 0

/-- A projection, feature-major: entry (f, n) is Σ_j W j f · x n j. -/
def projK (x : ι → δ → EReal) (W : δ → η → EReal) (f : η) (n : ι) : EReal := ∑ j, W j f * x n j

/-- The same projection, node-major: entry (n, f) is Σ_j x n j · W j f. -/
def projR (x : ι → δ → EReal) (W : δ → η → EReal) (n : ι) (f : η) : EReal := ∑ j, x n j * W j f

/-- A layer, feature-major. -/
def layerK (A : ι → ι → EReal) (b : η → EReal) (v : η → ι → EReal) (f : η) (c : ι) : EReal :=
  max ((∑ n, (v f n * dinv A n) * A n c) * dinv A c + b f) 0

/-- A layer, node-major. -/
def layerR (A : ι → ι → EReal) (b : η → EReal) (v : ι → η → EReal) (c : ι) (f : η) : EReal :=
  max ((∑ r, ((dinv A c * A r c) * dinv A r) * v r f) + b f) 0

/-- Two layers with a projection before each, feature-major, read at (node, feature). -/
def netK (A : ι → ι → EReal) (x : ι → δ → EReal) (W1 : δ → η → EReal) (b1 : η → EReal) (W2 : η → κ → EReal) (b2 : κ → EReal)
    (c : ι) (g : κ) : EReal :=
  layerK A b2 (fun g' c' => ∑ f, W2 f g' * layerK A b1 (projK x W1) f c') g c

/-- Two layers with a projection before each, node-major. -/
def netR (A : ι → ι → EReal) (x : ι → δ → EReal) (W1 : δ → η → EReal) (b1 : η → EReal) (W2 : η → κ → EReal) (b2 : κ → EReal)
    (c : ι) (g : κ) : EReal :=
  layerR A b2 (fun c' g' => ∑ f, layerR A b1 (projR x W1) c' f * W2 f g') c g

/-- The strict comparison's word is one exactly when the comparison holds. -/
theorem cmp_ogt_eq_one {x y : EReal} : Ideal.cmp .ogt x y = 1 ↔ y < x := by
  show BitVec.ofBool (decide (y < x)) = 1#1 ↔ y < x
  by_cases h : y < x
  · simp [h]
  · simp [h]

/-- With a real adjacency every dinv is a real number: a positive real degree has a real inverse square root, and elsewhere
    dinv is zero. -/
theorem dinv_real {A : ι → ι → EReal} (hA : ∀ r c, IsReal (A r c)) (c : ι) : IsReal (dinv A c) := by
  unfold dinv Scalar.select
  split
  · next h => exact (IsReal.sum_univ _ fun r => hA r c).rsqrt (cmp_ogt_eq_one.mp h)
  · exact isReal_zero

theorem projK_real {x : ι → δ → EReal} {W : δ → η → EReal} (hx : ∀ n j, IsReal (x n j)) (hW : ∀ j f, IsReal (W j f)) (f : η) (n : ι) :
    IsReal (projK x W f n) := IsReal.sum_univ _ fun j => (hW j f).mul (hx n j)

theorem layerK_real {A : ι → ι → EReal} {b : η → EReal} {v : η → ι → EReal} (hA : ∀ r c, IsReal (A r c)) (hb : ∀ f, IsReal (b f))
    (hv : ∀ f n, IsReal (v f n)) (f : η) (c : ι) : IsReal (layerK A b v f c) :=
  ((((IsReal.sum_univ _ fun n => ((hv f n).mul (dinv_real hA n)).mul (hA n c)).mul (dinv_real hA c)).add (hb f))).max isReal_zero

/-- The projections agree: each product's factors are swapped, nothing else. -/
theorem projK_eq_projR (x : ι → δ → EReal) (W : δ → η → EReal) (f : η) (n : ι) : projK x W f n = projR x W n f :=
  Finset.sum_congr rfl fun j _ => mul_comm _ _

/-- THE LAW. With a real adjacency and real features, the common factor dinv c comes out of the sum over the neighbours:
    (Σ_n (v n · d n) · a n) · D = Σ_n ((D · a n) · d n) · v n on real numbers. -/
theorem factor_out {a d v : ι → EReal} {D : EReal} (ha : ∀ n, IsReal (a n)) (hd : ∀ n, IsReal (d n)) (hv : ∀ n, IsReal (v n))
    (hD : IsReal D) : (∑ n, (v n * d n) * a n) * D = ∑ n, ((D * a n) * d n) * v n := by
  choose a' ha' using ha
  choose d' hd' using hd
  choose v' hv' using hv
  obtain ⟨D', rfl⟩ := hD
  simp only [ha', hd', hv', ← EReal.coe_mul, coe_finset_sum]
  rw [Finset.sum_mul]
  exact congrArg _ (Finset.sum_congr rfl fun n _ => by ring)

/-- A layer in the two arrangements, on real data whose features agree up to the transposition. -/
theorem layerK_eq_layerR {A : ι → ι → EReal} {b : η → EReal} {v : η → ι → EReal} {v' : ι → η → EReal}
    (hA : ∀ r c, IsReal (A r c)) (hv : ∀ f n, IsReal (v f n)) (hvv : ∀ f n, v f n = v' n f) (f : η) (c : ι) :
    layerK A b v f c = layerR A b v' c f := by
  unfold layerK layerR
  rw [factor_out (fun n => hA n c) (fun n => dinv_real hA n) (fun n => hv f n) (dinv_real hA c)]
  simp only [hvv]

/-- The two-layer network in the two arrangements, on real data. -/
theorem netK_eq_netR {A : ι → ι → EReal} {x : ι → δ → EReal} {W1 : δ → η → EReal} {b1 : η → EReal} {W2 : η → κ → EReal}
    {b2 : κ → EReal} (hA : ∀ r c, IsReal (A r c)) (hx : ∀ n j, IsReal (x n j)) (hW1 : ∀ j f, IsReal (W1 j f))
    (hb1 : ∀ f, IsReal (b1 f)) (hW2 : ∀ f g, IsReal (W2 f g)) (c : ι) (g : κ) :
    netK A x W1 b1 W2 b2 c g = netR A x W1 b1 W2 b2 c g := by
  have h1 : ∀ f c', layerK A b1 (projK x W1) f c' = layerR A b1 (projR x W1) c' f := fun f c' =>
    layerK_eq_layerR hA (fun f n => projK_real hx hW1 f n) (fun f n => projK_eq_projR x W1 f n) f c'
  unfold netK netR
  refine layerK_eq_layerR hA (fun g' c' => IsReal.sum_univ _ fun f => (hW2 f g').mul (layerK_real hA hb1 (fun f n => projK_real hx hW1 f n) f c'))
    (fun g' c' => Finset.sum_congr rfl fun f _ => by rw [h1 f c', mul_comm]) g c

/-- The network depends on its data only through their values. -/
theorem netK_congr {A A' : ι → ι → EReal} {x x' : ι → δ → EReal} {W1 W1' : δ → η → EReal} {b1 b1' : η → EReal} {W2 W2' : η → κ → EReal}
    {b2 b2' : κ → EReal} {c c' : ι} {g g' : κ} (hA : ∀ r s, A r s = A' r s) (hx : ∀ n j, x n j = x' n j) (hW1 : ∀ j f, W1 j f = W1' j f)
    (hb1 : ∀ f, b1 f = b1' f) (hW2 : ∀ f k, W2 f k = W2' f k) (hb2 : ∀ k, b2 k = b2' k) (hc : c = c') (hg : g = g') :
    netK A x W1 b1 W2 b2 c g = netK A' x' W1' b1' W2' b2' c' g' := by
  obtain rfl : A = A' := funext fun r => funext fun s => hA r s
  obtain rfl : x = x' := funext fun n => funext fun j => hx n j
  obtain rfl : W1 = W1' := funext fun j => funext fun f => hW1 j f
  obtain rfl : b1 = b1' := funext hb1
  obtain rfl : W2 = W2' := funext fun f => funext fun k => hW2 f k
  obtain rfl : b2 = b2' := funext hb2
  rw [hc, hg]

end Cert.GcnSpec

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.GraphAt.lean ====
/-
  The per-graph function read at an index on the extended reals.

  Each stage is read at explicit coordinates: the adjacency block with its unit axis dropped; the column sums and dinv; the
  three matrix products as sums over their one contracted coordinate (whatever the product's dimension numbers, the
  contracted coordinate runs over the rows of one operand and the columns or rows of the other); the scalings and the
  bias as pointwise expressions; the final transpose. Put together, the function is the feature-major network of the
  specification, at (node, feature), of the slices it was given. A change of float format is the identity here.
-/
import proofs.«136823_g57208964383454_cont_9to1_m_350_27_alg».proof.Proof.PerGraph
import proofs.«136823_g57208964383454_cont_9to1_m_350_27_alg».proof.Proof.Spec
import proofs.«136823_g57208964383454_cont_9to1_m_350_27_alg».proof.Proof.LibContract
import proofs.«136823_g57208964383454_cont_9to1_m_350_27_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Graph

open Cert.KernelIdeal Cert.KernelIdeal.Gen Idealize.ShloMosaic Idealize.ShloMosaic.ValueIdx Cert.GcnSpec
open scoped BigOperators

/-! ## The adjacency, its column sums, dinv -/

theorem adj_apply (a : Vec Ideal S1x512x512 .f32) (r c : Fin 512) : adj a (ix2 r c) = a (ix3 (0 : Fin 1) r c) :=
  shapeCast_1ab_ab_apply a shapeCasts_S1x512x512_S512x512 r c

/-- The reduced index c with row k put back is (k, c). -/
theorem lift_col (h : S512x512.Reduces [0] S512) (c : Fin 512) (k : Fin (S512x512.size 0)) :
    h.lift (ix1 c) k = ix2 (⟨k.val, k.isLt⟩ : Fin 512) c := by
  funext d; apply Fin.ext
  fin_cases d <;> rfl

/-- A sum over the rows of a square matrix, at column c. -/
theorem colSum_apply (a2 : FVec Ideal S512x512 .f32) (h : S512x512.Reduces [0] S512) (hφ : FKind.Formats .f32)
    (hacc : (0x00000000#32 : BitVec 32) = FKind.add.neutral .f32 hφ) (c : Fin 512) :
    multiReduction .add [0] S512 a2 0x00000000#32 h hφ hacc (ix1 c) = ∑ r : Fin 512, a2 (ix2 r c) :=
  (Ideal.multiReduction_add_single a2 0x00000000#32 h hφ hacc (ix1 c)).trans
    (Finset.sum_congr rfl fun k _ => congrArg a2 (lift_col h c k))

/-- dinv of a square matrix at column c is the specification's dinv of its entries. -/
theorem dinvRow_apply (a2 : FVec Ideal S512x512 .f32) (u : Fin 1) (c : Fin 512) :
    dinvRow a2 (ix2 u c) = dinv (fun r c' => a2 (ix2 r c')) c := by
  have hD : shapeCast S1x512 (multiReduction .add [0] S512 a2 0x00000000#32 reduces_S512x512_S512 (.inl rfl) rfl) shapeCasts_S512_S1x512 (ix2 u c)
      = ∑ r : Fin 512, a2 (ix2 r c) :=
    (shapeCast_a_1a_apply _ shapeCasts_S512_S1x512 u c).trans (colSum_apply a2 _ _ _ c)
  have key : ∀ x y z : EReal, x = y → z = 0 →
      Scalar.select (Ideal.cmp .ogt x z) (Ideal.rsqrt x) z = Scalar.select (Ideal.cmp .ogt y 0) (Ideal.rsqrt y) 0 := by
    intro x y z h1 h2; rw [h1, h2]
  exact key _ _ _ hD Ideal.ofBits_zero_f32

/-! ## The operand indices of the three products, axis by axis

On its contracted axis an operand index is the contraction coordinate; on its free axis it is the output's coordinate for that
operand (the left operand's free axis comes first in the output, the right operand's second). -/

theorem lhsP_c (j : S64x512.Idx) (q : dot_S128x64_S512x128_S64x512_0_1_1_0_n_n.contr.Idx) :
    (dot_S128x64_S512x128_S64x512_0_1_1_0_n_n.lhsIdx j q 0).val = (q ⟨0, by decide⟩).val :=
  dot_S128x64_S512x128_S64x512_0_1_1_0_n_n.lhsIdx_val_of_single rfl j q
theorem lhsP_n (j : S64x512.Idx) (q : dot_S128x64_S512x128_S64x512_0_1_1_0_n_n.contr.Idx) :
    (dot_S128x64_S512x128_S64x512_0_1_1_0_n_n.lhsIdx j q 1).val = (j 0).val := by
  unfold DotDims.lhsIdx
  rw [dif_neg (show ¬(1 : Fin S128x64.rank) ∈ dot_S128x64_S512x128_S64x512_0_1_1_0_n_n.lhsBatch by decide), dif_pos (show (1 : Fin S128x64.rank) ∈ dot_S128x64_S512x128_S64x512_0_1_1_0_n_n.lhsNonContracting by decide)]
  rfl
theorem rhsP_c (j : S64x512.Idx) (q : dot_S128x64_S512x128_S64x512_0_1_1_0_n_n.contr.Idx) :
    (dot_S128x64_S512x128_S64x512_0_1_1_0_n_n.rhsIdx j q 1).val = (q ⟨0, by decide⟩).val :=
  dot_S128x64_S512x128_S64x512_0_1_1_0_n_n.rhsIdx_val_of_single rfl j q
theorem rhsP_n (j : S64x512.Idx) (q : dot_S128x64_S512x128_S64x512_0_1_1_0_n_n.contr.Idx) :
    (dot_S128x64_S512x128_S64x512_0_1_1_0_n_n.rhsIdx j q 0).val = (j 1).val := by
  unfold DotDims.rhsIdx
  rw [dif_neg (show ¬(0 : Fin S512x128.rank) ∈ dot_S128x64_S512x128_S64x512_0_1_1_0_n_n.rhsBatch by decide), dif_pos (show (0 : Fin S512x128.rank) ∈ dot_S128x64_S512x128_S64x512_0_1_1_0_n_n.rhsNonContracting by decide)]
  rfl

theorem lhsS_c (j : S64x512.Idx) (q : dot_S64x512_S512x512_S64x512_1_0_0_1_n_n.contr.Idx) :
    (dot_S64x512_S512x512_S64x512_1_0_0_1_n_n.lhsIdx j q 1).val = (q ⟨0, by decide⟩).val :=
  dot_S64x512_S512x512_S64x512_1_0_0_1_n_n.lhsIdx_val_of_single rfl j q
theorem lhsS_n (j : S64x512.Idx) (q : dot_S64x512_S512x512_S64x512_1_0_0_1_n_n.contr.Idx) :
    (dot_S64x512_S512x512_S64x512_1_0_0_1_n_n.lhsIdx j q 0).val = (j 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem rhsS_c (j : S64x512.Idx) (q : dot_S64x512_S512x512_S64x512_1_0_0_1_n_n.contr.Idx) :
    (dot_S64x512_S512x512_S64x512_1_0_0_1_n_n.rhsIdx j q 0).val = (q ⟨0, by decide⟩).val :=
  dot_S64x512_S512x512_S64x512_1_0_0_1_n_n.rhsIdx_val_of_single rfl j q
theorem rhsS_n (j : S64x512.Idx) (q : dot_S64x512_S512x512_S64x512_1_0_0_1_n_n.contr.Idx) :
    (dot_S64x512_S512x512_S64x512_1_0_0_1_n_n.rhsIdx j q 1).val = (j 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

theorem lhsM_c (j : S64x512.Idx) (q : dot_S64x64_S64x512_S64x512_0_0_1_1_n_n.contr.Idx) :
    (dot_S64x64_S64x512_S64x512_0_0_1_1_n_n.lhsIdx j q 0).val = (q ⟨0, by decide⟩).val :=
  dot_S64x64_S64x512_S64x512_0_0_1_1_n_n.lhsIdx_val_of_single rfl j q
theorem lhsM_n (j : S64x512.Idx) (q : dot_S64x64_S64x512_S64x512_0_0_1_1_n_n.contr.Idx) :
    (dot_S64x64_S64x512_S64x512_0_0_1_1_n_n.lhsIdx j q 1).val = (j 0).val := by
  unfold DotDims.lhsIdx
  rw [dif_neg (show ¬(1 : Fin S64x64.rank) ∈ dot_S64x64_S64x512_S64x512_0_0_1_1_n_n.lhsBatch by decide), dif_pos (show (1 : Fin S64x64.rank) ∈ dot_S64x64_S64x512_S64x512_0_0_1_1_n_n.lhsNonContracting by decide)]
  rfl
theorem rhsM_c (j : S64x512.Idx) (q : dot_S64x64_S64x512_S64x512_0_0_1_1_n_n.contr.Idx) :
    (dot_S64x64_S64x512_S64x512_0_0_1_1_n_n.rhsIdx j q 0).val = (q ⟨0, by decide⟩).val :=
  dot_S64x64_S64x512_S64x512_0_0_1_1_n_n.rhsIdx_val_of_single rfl j q
theorem rhsM_n (j : S64x512.Idx) (q : dot_S64x64_S64x512_S64x512_0_0_1_1_n_n.contr.Idx) :
    (dot_S64x64_S64x512_S64x512_0_0_1_1_n_n.rhsIdx j q 1).val = (j 1).val := by
  unfold DotDims.rhsIdx
  rw [dif_neg (show ¬(1 : Fin S64x512.rank) ∈ dot_S64x64_S64x512_S64x512_0_0_1_1_n_n.rhsBatch by decide), dif_pos (show (1 : Fin S64x512.rank) ∈ dot_S64x64_S64x512_S64x512_0_0_1_1_n_n.rhsNonContracting by decide)]
  rfl

/-! ## The three matrix products -/

/-- The first projection at (f, n): the contracted coordinate runs over the rows of W1 and the columns of x. -/
theorem projT_apply (w1 : FVec Ideal S128x64 .bf16) (x : Vec Ideal S1x512x128 .f32) (f : Fin 64) (n : Fin 512) :
    projT w1 x (ix2 f n) = ∑ j : Fin 128, w1 (ix2 j f) * x (ix3 (0 : Fin 1) n j) := by
  unfold projT
  refine (Cert.LibContract.matmul_zero_apply dot_S128x64_S512x128_S64x512_0_1_1_0_n_n 128 rfl rfl none w1 _ (ix2 f n)
    (fun j => ix2 j f) (fun j => ix2 n j) ?_ ?_).trans ?_
  · intro q i hq
    funext a; apply Fin.ext
    match a with
    | ⟨0, _⟩ => exact (lhsP_c _ q).trans hq
    | ⟨1, _⟩ => exact lhsP_n _ q
  · intro q i hq
    funext a; apply Fin.ext
    match a with
    | ⟨0, _⟩ => exact rhsP_n _ q
    | ⟨1, _⟩ => exact (rhsP_c _ q).trans hq
  · exact Finset.sum_congr rfl fun j _ => congrArg (w1 (ix2 j f) * ·) (shapeCast_1ab_ab_apply x shapeCasts_S1x512x128_S512x128 n j)

/-- The product with the adjacency at (f, c): the contracted coordinate runs over the columns of the left operand and the
    rows of the adjacency. -/
theorem spread_apply (d : FVec Ideal S1x512 .f32) (ab : FVec Ideal S512x512 .bf16) (v : FVec Ideal S64x512 .f32) (f : Fin 64) (c : Fin 512) :
    spread d ab v (ix2 f c) = ∑ n : Fin 512, (v (ix2 f n) * d (ix2 (0 : Fin 1) n)) * ab (ix2 n c) := by
  unfold spread
  refine (Cert.LibContract.matmul_zero_apply dot_S64x512_S512x512_S64x512_1_0_0_1_n_n 512 rfl rfl none _ ab (ix2 f c)
    (fun n => ix2 f n) (fun n => ix2 n c) ?_ ?_).trans ?_
  · intro q i hq
    funext a; apply Fin.ext
    match a with
    | ⟨0, _⟩ => exact lhsS_n _ q
    | ⟨1, _⟩ => exact (lhsS_c _ q).trans hq
  · intro q i hq
    funext a; apply Fin.ext
    match a with
    | ⟨0, _⟩ => exact (rhsS_c _ q).trans hq
    | ⟨1, _⟩ => exact rhsS_n _ q
  · exact Finset.sum_congr rfl fun n _ => congrArg (fun t => (v (ix2 f n) * t) * ab (ix2 n c))
      (broadcastTo_1b_ab_apply d broadcasts_S1x512_S64x512 f n)

/-- The second projection at (g, c): the contracted coordinate runs over the rows of both operands. -/
theorem mixT_apply (w2 : FVec Ideal S64x64 .bf16) (h : FVec Ideal S64x512 .f32) (g : Fin 64) (c : Fin 512) :
    mixT w2 h (ix2 g c) = ∑ f : Fin 64, w2 (ix2 f g) * h (ix2 f c) := by
  unfold mixT
  refine Cert.LibContract.matmul_zero_apply dot_S64x64_S64x512_S64x512_0_0_1_1_n_n 64 rfl rfl none w2 _ (ix2 g c)
    (fun f => ix2 f g) (fun f => ix2 f c) ?_ ?_
  · intro q i hq
    funext a; apply Fin.ext
    match a with
    | ⟨0, _⟩ => exact (lhsM_c _ q).trans hq
    | ⟨1, _⟩ => exact lhsM_n _ q
  · intro q i hq
    funext a; apply Fin.ext
    match a with
    | ⟨0, _⟩ => exact (rhsM_c _ q).trans hq
    | ⟨1, _⟩ => exact rhsM_n _ q

/-! ## The pointwise stages and the transpose -/

theorem settle_apply (bc : FVec Ideal S64x1 .f32) (d : FVec Ideal S1x512 .f32) (t : FVec Ideal S64x512 .f32) (f : Fin 64) (c : Fin 512) :
    settle bc d t (ix2 f c) = max (t (ix2 f c) * d (ix2 (0 : Fin 1) c) + bc (ix2 f (0 : Fin 1))) 0 := by
  have e1 := broadcastTo_1b_ab_apply d broadcasts_S1x512_S64x512 f c
  have e2 := Cert.LibColumnLayout.broadcastTo_a1_ab_apply bc broadcasts_S64x1_S64x512 f c
  have key : ∀ p q r s z : EReal, q = r → s = (bc (ix2 f (0 : Fin 1)) : EReal) → z = 0 → max (p * q + s) z = max (p * r + bc (ix2 f (0 : Fin 1))) 0 := by
    intro p q r s z h1 h2 h3; rw [h1, h2, h3]
  exact key _ _ _ _ _ e1 e2 Ideal.ofBits_zero_f32

theorem emit_apply (o : FVec Ideal S64x512 .f32) (u : Fin 1) (c : Fin 512) (g : Fin 64) : emit o (ix3 u c g) = o (ix2 g c) :=
  (shapeCast_ab_1ab_apply _ shapeCasts_S512x64_S1x512x64 u c g).trans (transpose_ix2_apply o transposes_S64x512_p1_0_S512x64 c g)

/-! ## A layer, and the whole function -/

/-- Scaling, product with the adjacency, scaling, bias and clamp: the specification's feature-major layer. -/
theorem layer_apply (bc : FVec Ideal S64x1 .f32) (a2 : FVec Ideal S512x512 .f32) (v : FVec Ideal S64x512 .f32) (f : Fin 64) (c : Fin 512) :
    settle bc (dinvRow a2) (spread (dinvRow a2) (truncf .bf16 a2 bitsLt_bf16_f32) v) (ix2 f c)
      = layerK (fun r c' => a2 (ix2 r c')) (fun f' => bc (ix2 f' (0 : Fin 1))) (fun f' n => v (ix2 f' n)) f c := by
  rw [settle_apply, spread_apply, dinvRow_apply]
  unfold layerK
  refine congrArg (fun s => max (s * dinv (fun r c' => a2 (ix2 r c')) c + bc (ix2 f (0 : Fin 1))) 0) ?_
  exact Finset.sum_congr rfl fun n _ => by rw [dinvRow_apply]; rfl

/-- One graph's result at (node c, feature g) is the feature-major two-layer network of the slices. -/
theorem graphOut_apply (a : Vec Ideal S1x512x512 .f32) (x : Vec Ideal S1x512x128 .f32) (w1 : Vec Ideal S128x64 .f32) (b1 : Vec Ideal S64 .f32)
    (w2 : Vec Ideal S64x64 .f32) (b2 : Vec Ideal S64 .f32) (u : Fin 1) (c : Fin 512) (g : Fin 64) :
    graphOut a x w1 b1 w2 b2 (ix3 u c g)
      = netK (fun r c' => a (ix3 (0 : Fin 1) r c')) (fun n j => x (ix3 (0 : Fin 1) n j)) (fun j f => w1 (ix2 j f)) (fun f => b1 (ix1 f))
          (fun f g' => w2 (ix2 f g')) (fun g' => b2 (ix1 g')) c g := by
  have hA : (fun r c' => adj a (ix2 r c')) = fun r c' => a (ix3 (0 : Fin 1) r c') := funext fun r => funext fun c' => adj_apply a r c'
  have hb1 : (fun f' : Fin 64 => shapeCast S64x1 b1 shapeCasts_S64_S64x1 (ix2 f' (0 : Fin 1))) = fun f' => b1 (ix1 f') :=
    funext fun f' => Cert.LibColumnLayout.shapeCast_a_a1_apply b1 shapeCasts_S64_S64x1 f' 0
  have hb2 : (fun f' : Fin 64 => shapeCast S64x1 b2 shapeCasts_S64_S64x1 (ix2 f' (0 : Fin 1))) = fun f' => b2 (ix1 f') :=
    funext fun f' => Cert.LibColumnLayout.shapeCast_a_a1_apply b2 shapeCasts_S64_S64x1 f' 0
  unfold graphOut netK
  rw [emit_apply, layer_apply, hA, hb2]
  refine congrArg (fun v => layerK (fun r c' => a (ix3 (0 : Fin 1) r c')) (fun g' => b2 (ix1 g')) v g c) ?_
  funext g' c'
  rw [mixT_apply]
  refine Finset.sum_congr rfl fun f _ => congrArg (w2 (ix2 f g') * ·) ?_
  rw [layer_apply, hA, hb1]
  refine congrArg (fun v => layerK (fun r c' => a (ix3 (0 : Fin 1) r c')) (fun f' => b1 (ix1 f')) v f c') ?_
  funext f' n
  exact projT_apply _ x f' n

end Cert.KernelIdeal.Graph

end
-- ==== Proof.Arrays.lean ====
/-
  The two arrangements of the network over the six argument arrays: sixteen graphs of 512 nodes, 128 input features, 64
  hidden and 64 output features. Entry (b, c, g) of the result is the two-layer network of graph b's adjacency and features,
  at node c and feature g. On real data the two arrangements give one array.
-/
import Idealize.ShloMosaic.Lib.ValueIdx
import proofs.«136823_g57208964383454_cont_9to1_m_350_27_alg».proof.Proof.Spec

noncomputable section

namespace Cert.GcnArrays

open Idealize.ShloMosaic Idealize.ShloMosaic.ValueIdx Cert.GcnSpec Cert.LibMoment

abbrev AdjArr := (⟨3, ![16, 512, 512]⟩ : Shape).Idx → EReal
abbrev FeatArr := (⟨3, ![16, 512, 128]⟩ : Shape).Idx → EReal
abbrev W1Arr := (⟨2, ![128, 64]⟩ : Shape).Idx → EReal
abbrev W2Arr := (⟨2, ![64, 64]⟩ : Shape).Idx → EReal
abbrev BiasArr := (⟨1, ![64]⟩ : Shape).Idx → EReal
abbrev OutArr := (⟨3, ![16, 512, 64]⟩ : Shape).Idx → EReal

/-- Entry (b, c, g), feature-major arrangement. -/
def outK (A : AdjArr) (X : FeatArr) (W1 : W1Arr) (b1 : BiasArr) (W2 : W2Arr) (b2 : BiasArr) (b : Fin 16) (c : Fin 512) (g : Fin 64) : EReal :=
  netK (fun r c' => A (ix3 b r c')) (fun n j => X (ix3 b n j)) (fun j f => W1 (ix2 j f)) (fun f => b1 (ix1 f))
    (fun f g' => W2 (ix2 f g')) (fun g' => b2 (ix1 g')) c g

/-- Entry (b, c, g), node-major arrangement. -/
def outR (A : AdjArr) (X : FeatArr) (W1 : W1Arr) (b1 : BiasArr) (W2 : W2Arr) (b2 : BiasArr) (b : Fin 16) (c : Fin 512) (g : Fin 64) : EReal :=
  netR (fun r c' => A (ix3 b r c')) (fun n j => X (ix3 b n j)) (fun j f => W1 (ix2 j f)) (fun f => b1 (ix1 f))
    (fun f g' => W2 (ix2 f g')) (fun g' => b2 (ix1 g')) c g

/-- The result array, feature-major arrangement. -/
def arrK (A : AdjArr) (X : FeatArr) (W1 : W1Arr) (b1 : BiasArr) (W2 : W2Arr) (b2 : BiasArr) : OutArr :=
  fun i => outK A X W1 b1 W2 b2 ⟨(i 0).val, (i 0).isLt⟩ ⟨(i 1).val, (i 1).isLt⟩ ⟨(i 2).val, (i 2).isLt⟩

/-- The result array, node-major arrangement. -/
def arrR (A : AdjArr) (X : FeatArr) (W1 : W1Arr) (b1 : BiasArr) (W2 : W2Arr) (b2 : BiasArr) : OutArr :=
  fun i => outR A X W1 b1 W2 b2 ⟨(i 0).val, (i 0).isLt⟩ ⟨(i 1).val, (i 1).isLt⟩ ⟨(i 2).val, (i 2).isLt⟩

/-- On real data the two arrangements are one array. (The second bias enters both the same way and may be anything.) -/
theorem arrK_eq_arrR {A : AdjArr} {X : FeatArr} {W1 : W1Arr} {b1 : BiasArr} {W2 : W2Arr} (b2 : BiasArr) (hA : ∀ i, IsReal (A i))
    (hX : ∀ i, IsReal (X i)) (hW1 : ∀ i, IsReal (W1 i)) (hb1 : ∀ i, IsReal (b1 i)) (hW2 : ∀ i, IsReal (W2 i)) :
    arrK A X W1 b1 W2 b2 = arrR A X W1 b1 W2 b2 := by
  funext i
  unfold arrK arrR outK outR
  exact netK_eq_netR (fun _ _ => hA _) (fun _ _ => hX _) (fun _ _ => hW1 _) (fun _ => hb1 _) (fun _ _ => hW2 _) _ _

end Cert.GcnArrays

end
-- ==== Proof.KernelValue.lean ====
/-
  The kernel's result array after the run, as one function of the six argument arrays.

  The grid has two points; point t handles graphs 8t .. 8t+7. Its adjacency block is rows 8t .. 8t+7 of the adjacency array's
  leading axis, likewise the feature block, and the four weight arrays are staged whole. The body leaves eight pieces in the
  output block, piece g being one graph's result computed from slice g of the two big blocks, so the block written back at
  point t is rows 8t .. 8t+7 of the feature-major result array. The two blocks cover the result array.
-/
import proofs.«136823_g57208964383454_cont_9to1_m_350_27_alg».proof.Proof.Gen.KernelIdeal.Value
import proofs.«136823_g57208964383454_cont_9to1_m_350_27_alg».proof.Proof.GraphAt
import proofs.«136823_g57208964383454_cont_9to1_m_350_27_alg».proof.Proof.Arrays

noncomputable section

namespace Cert.KernelIdeal.ArrayValue

open Cert.KernelIdeal Cert.KernelIdeal.Gen Cert.KernelIdeal.Graph Idealize.ShloMosaic Idealize.ShloMosaic.TcCoe Idealize.SL.Sem
open Idealize.ShloMosaic.ValueIdx Cert.GcnSpec Cert.GcnArrays
open Idealize.ShloMosaic.Pipeline (Dat)

variable (m : (ℓ : Loc nD τ sig) → Buf (Elt Ideal) ℓ) (ρ : Dev nD → PrngReg)

/-- The result array the kernel ends with: the feature-major arrangement of the arguments as the region finds them. -/
abbrev result (c : Dev nD) : S16x512x64.Idx → EReal :=
  arrK (V m c main_arg1) (V m c main_arg0) (V m c main_arg2) (V m c main_arg3) (V m c main_arg4) (V m c main_arg5)

/-- The printed index maps, decided over the two grid points: the two big input windows and the output window move along
    their leading axis with the point, everything else stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0
    ∧ t.val < 2 :=
  (by decide +kernel : ∀ t : Fin grid0.N, _)

/-- Every block row of the result array is some point's. -/
theorem idx_onto : ∀ q0 : Fin 2, ∃ t : Fin cfg0.N, win0_6.index t = ![q0.val, 0, 0] :=
  (by decide +kernel : ∀ q0 : Fin 2, ∃ t : Fin grid0.N, win0_6.index t = ![q0.val, 0, 0])

/-- Piece g of the output block, whichever g: one graph's function of slice g of the two big blocks, read at a place of the
    piece, is the result array at the corresponding place of the block. -/
theorem piece_at (c : Dev nD) (t : Fin cfg0.N) (g : ℕ) (hg : g < 8)
    (inbA : ∀ a, (![g, 0, 0] : Fin 3 → ℕ) a + S1x512x512.size a ≤ S8x512x512.size a)
    (inbX : ∀ a, (![g, 0, 0] : Fin 3 → ℕ) a + S1x512x128.size a ≤ S8x512x128.size a)
    (inbO : ∀ a, (![g, 0, 0] : Fin 3 → ℕ) a + S1x512x64.size a ≤ S8x512x64.size a)
    (x : S1x512x64.Idx) :
    graphOut (View.ld (iblk m c 0 t) (Rect.unit (s := S8x512x512) ![g, 0, 0] S1x512x512.size inbA))
        (View.ld (iblk m c 1 t) (Rect.unit (s := S8x512x128) ![g, 0, 0] S1x512x128.size inbX))
        (View.ld (iblk m c 2 t) r0_0) (View.ld (iblk m c 3 t) r0_2) (View.ld (iblk m c 4 t) r0_1) (View.ld (iblk m c 5 t) r0_2) x
      = result m c (((cfg0.win 6).blk t).view.emb ((Rect.unit (s := S8x512x64) ![g, 0, 0] S1x512x64.size inbO).emb x)) := by
  obtain ⟨u, cc, f, rfl⟩ : ∃ (u : Fin 1) (cc : Fin 512) (f : Fin 64), x = ix3 u cc f := ⟨x 0, x 1, x 2, eq_ix3 x⟩
  obtain ⟨e00, e01, e02, e10, e11, e12, e20, e21, e30, e40, e41, e50, e60, e61, e62, ht⟩ := idx_facts t
  have hu : u.val = 0 := by omega
  rw [graphOut_apply]
  unfold result arrK outK
  refine netK_congr (fun r s => ?_) (fun n j => ?_) (fun j f' => ?_) (fun f' => ?_) (fun f' k => ?_) (fun k => ?_) ?_ ?_
  · show V m c main_arg1 (((cfg0.win 0).blk t).view.emb ((Rect.unit (s := S8x512x512) ![g, 0, 0] S1x512x512.size inbA).idx (ix3 (0 : Fin 1) r s))) = V m c main_arg1 _
    refine congrArg (V m c main_arg1) (funext fun a => Fin.ext ?_)
    match a with
    | ⟨0, _⟩ => show win0_0.index t (0 : Fin 3) * 8 + 1 * (g + 1 * 0) = win0_6.index t (0 : Fin 3) * 8 + 1 * (g + 1 * u.val); omega
    | ⟨1, _⟩ => show win0_0.index t (1 : Fin 3) * 512 + 1 * (0 + 1 * r.val) = r.val; omega
    | ⟨2, _⟩ => show win0_0.index t (2 : Fin 3) * 512 + 1 * (0 + 1 * s.val) = s.val; omega
  · show V m c main_arg0 (((cfg0.win 1).blk t).view.emb ((Rect.unit (s := S8x512x128) ![g, 0, 0] S1x512x128.size inbX).idx (ix3 (0 : Fin 1) n j))) = V m c main_arg0 _
    refine congrArg (V m c main_arg0) (funext fun a => Fin.ext ?_)
    match a with
    | ⟨0, _⟩ => show win0_1.index t (0 : Fin 3) * 8 + 1 * (g + 1 * 0) = win0_6.index t (0 : Fin 3) * 8 + 1 * (g + 1 * u.val); omega
    | ⟨1, _⟩ => show win0_1.index t (1 : Fin 3) * 512 + 1 * (0 + 1 * n.val) = n.val; omega
    | ⟨2, _⟩ => show win0_1.index t (2 : Fin 3) * 128 + 1 * (0 + 1 * j.val) = j.val; omega
  · show V m c main_arg2 (((cfg0.win 2).blk t).view.emb (r0_0.idx (ix2 j f'))) = V m c main_arg2 _
    refine congrArg (V m c main_arg2) (funext fun a => Fin.ext ?_)
    match a with
    | ⟨0, _⟩ => show win0_2.index t (0 : Fin 2) * 128 + 1 * (0 + 1 * j.val) = j.val; omega
    | ⟨1, _⟩ => show win0_2.index t (1 : Fin 2) * 64 + 1 * (0 + 1 * f'.val) = f'.val; omega
  · show V m c main_arg3 (((cfg0.win 3).blk t).view.emb (r0_2.idx (ix1 f'))) = V m c main_arg3 _
    refine congrArg (V m c main_arg3) (funext fun a => Fin.ext ?_)
    match a with
    | ⟨0, _⟩ => show win0_3.index t (0 : Fin 1) * 64 + 1 * (0 + 1 * f'.val) = f'.val; omega
  · show V m c main_arg4 (((cfg0.win 4).blk t).view.emb (r0_1.idx (ix2 f' k))) = V m c main_arg4 _
    refine congrArg (V m c main_arg4) (funext fun a => Fin.ext ?_)
    match a with
    | ⟨0, _⟩ => show win0_4.index t (0 : Fin 2) * 64 + 1 * (0 + 1 * f'.val) = f'.val; omega
    | ⟨1, _⟩ => show win0_4.index t (1 : Fin 2) * 64 + 1 * (0 + 1 * k.val) = k.val; omega
  · show V m c main_arg5 (((cfg0.win 5).blk t).view.emb (r0_2.idx (ix1 k))) = V m c main_arg5 _
    refine congrArg (V m c main_arg5) (funext fun a => Fin.ext ?_)
    match a with
    | ⟨0, _⟩ => show win0_5.index t (0 : Fin 1) * 64 + 1 * (0 + 1 * k.val) = k.val; omega
  · refine Fin.ext ?_
    show cc.val = win0_6.index t (1 : Fin 3) * 512 + 1 * (0 + 1 * cc.val); omega
  · refine Fin.ext ?_
    show f.val = win0_6.index t (2 : Fin 3) * 64 + 1 * (0 + 1 * f.val); omega

/-- WHAT POINT t WRITES BACK is block t of the result array: each of the eight pieces is the result array on its rows of the
    block, and the pieces tile the block. -/
theorem flushed_eq (c : Dev nD) (t : Fin cfg0.N) :
    (dats m 0 c).flushed 6 t = ((cfg0.win 6).blk t).view.read (Elt Ideal) (result m c) := by
  rw [Cert.KernelIdeal.Value.flushed6, out_eq]
  funext y
  show View.canon (Val := Elt Ideal) (s := S8x512x64) (e := .f32) _ y = result m c (((cfg0.win 6).blk t).view.emb y)
  refine View.canon_apply_of_pieces (Val := Elt Ideal) (S := S8x512x64) (e := .f32)
    (fun y' => (result m c (((cfg0.win 6).blk t).view.emb y') : Elt Ideal .f32)) _ ?_ y (cover0_6 _ _ _ _ _ _ _ _ y)
  intro p hp
  simp only [List.mem_cons, List.not_mem_nil, or_false] at hp
  rcases hp with rfl | rfl | rfl | rfl | rfl | rfl | rfl | rfl
  · exact fun x => piece_at m c t 7 (by decide) inb_S8x512x512_S1x512x512_7_0_0 inb_S8x512x128_S1x512x128_7_0_0 inb_S8x512x64_S1x512x64_7_0_0 x
  · exact fun x => piece_at m c t 6 (by decide) inb_S8x512x512_S1x512x512_6_0_0 inb_S8x512x128_S1x512x128_6_0_0 inb_S8x512x64_S1x512x64_6_0_0 x
  · exact fun x => piece_at m c t 5 (by decide) inb_S8x512x512_S1x512x512_5_0_0 inb_S8x512x128_S1x512x128_5_0_0 inb_S8x512x64_S1x512x64_5_0_0 x
  · exact fun x => piece_at m c t 4 (by decide) inb_S8x512x512_S1x512x512_4_0_0 inb_S8x512x128_S1x512x128_4_0_0 inb_S8x512x64_S1x512x64_4_0_0 x
  · exact fun x => piece_at m c t 3 (by decide) inb_S8x512x512_S1x512x512_3_0_0 inb_S8x512x128_S1x512x128_3_0_0 inb_S8x512x64_S1x512x64_3_0_0 x
  · exact fun x => piece_at m c t 2 (by decide) inb_S8x512x512_S1x512x512_2_0_0 inb_S8x512x128_S1x512x128_2_0_0 inb_S8x512x64_S1x512x64_2_0_0 x
  · exact fun x => piece_at m c t 1 (by decide) inb_S8x512x512_S1x512x512_1_0_0 inb_S8x512x128_S1x512x128_1_0_0 inb_S8x512x64_S1x512x64_1_0_0 x
  · exact fun x => piece_at m c t 0 (by decide) inb_S8x512x512_S1x512x512_0_0_0 inb_S8x512x128_S1x512x128_0_0_0 inb_S8x512x64_S1x512x64_0_0_0 x

/-- An index of the result array is in point t's block iff each coordinate is in the block's range on its axis. -/
theorem mem_blk (t : Fin cfg0.N) (i : S16x512x64.Idx) :
    i ∈ ((cfg0.win 6).blk t).view.set ↔ ∀ a : Fin 3, win0_6.index t a * S8x512x64.size a ≤ (i a).val ∧ (i a).val < win0_6.index t a * S8x512x64.size a + S8x512x64.size a := by
  show i ∈ ((View.whole main_v0).slice (win0_6.rect t)).set ↔ _
  rw [View.set_slice_whole, Rect.mem_set_unit]
  exact Iff.rfl

/-- The two blocks cover the result array: graph b's rows are in the block of point b / 8. -/
theorem cover (i : S16x512x64.Idx) : ∃ t : Fin cfg0.N, (cfg0.win 6).flush t = true ∧ i ∈ ((cfg0.win 6).blk t).view.set := by
  have hi0 : (i 0).val < 16 := (i 0).isLt
  have hi1 : (i 1).val < 512 := (i 1).isLt
  have hi2 : (i 2).val < 64 := (i 2).isLt
  obtain ⟨t, ht⟩ := idx_onto ⟨(i 0).val / 8, by omega⟩
  have q0 : win0_6.index t (0 : Fin 3) = (i 0).val / 8 := congrFun ht 0
  have q1 : win0_6.index t (1 : Fin 3) = 0 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 512 ≤ (i 1).val ∧ (i 1).val < win0_6.index t (1 : Fin 3) * 512 + 512; omega
  | ⟨2, _⟩ => show win0_6.index t (2 : Fin 3) * 64 ≤ (i 2).val ∧ (i 2).val < win0_6.index t (2 : Fin 3) * 64 + 64; omega

/-- THE ARRAY after the run is the feature-major result array of the arguments. -/
theorem final (c : Dev nD) : (dats m 0 c).arrAt 6 cfg0.N = result m c :=
  (dats m 0 c).arrAt_eq_of_cover 6 (result m c) (fun t _ => flushed_eq m c t) cover

/-- The kernel's run: every weakly fair execution ends with the result buffer at the feature-major result array of the
    arguments, which are unchanged. -/
theorem run : θ_run defs (onTc (τ := τ) (main (F := Ideal))) ⟨m, fun _ => 0, ρ⟩ fun r => ∀ c : Dev nD,
      r.2.mem ((c : Thread nD τ).loc main_v0) = arrK (m ((c : Thread nD τ).loc main_arg1)) (m ((c : Thread nD τ).loc main_arg0))
          (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference's result array as one function of the six argument arrays: the node-major arrangement.

  The reference transposes the adjacency, sums its last axis for the degrees, forms dinv by a comparison and a selection,
  builds the normalised adjacency dinv c · A (k, c) · dinv k by two broadcasts and two products, multiplies it into the
  projected features one graph at a time, adds the bias and clamps at zero; then does all of that again for the second
  layer (it recomputes the degrees and the normalised adjacency). Each stage is read at coordinates (graph, node, feature).
-/
import proofs.«136823_g57208964383454_cont_9to1_m_350_27_alg».proof.Proof.Gen.ReferenceIdeal.Read
import proofs.«136823_g57208964383454_cont_9to1_m_350_27_alg».proof.Proof.Arrays
import Idealize.ShloMosaic.Lib.ValueIdx
import Idealize.ShloMosaic.PureOps.Ideal.Laws

noncomputable section

namespace Cert.ReferenceIdeal.ArrayValue

open Cert.ReferenceIdeal Cert.ReferenceIdeal.Gen Cert.ReferenceIdeal.Read Idealize.ShloMosaic Idealize.ShloMosaic.ValueIdx
open Cert.GcnSpec Cert.GcnArrays
open scoped BigOperators

variable (x0 : (⟨S16x512x128, .f32⟩ : BufTy).Contents (Elt Ideal)) (x1 : (⟨S16x512x512, .f32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-! ## The degrees, dinv and the normalised adjacency, once per layer -/

/-- The column sums of graph b's adjacency (layer 1's copy): the transposed array summed along its last axis, from zero. -/
theorem deg1 (b : Fin 16) (c : Fin 512) : val_main_v2 (F := Ideal) x1 (ix2 b c) = ∑ r : Fin 512, x1 (ix3 b r c) := by
  rw [val_main_v2_apply, val_main_cst_apply]
  show Ideal.ofBits .f32 0x00000000#32 + _ = _
  rw [Ideal.ofBits_zero_f32, zero_add]
  refine Finset.sum_congr rfl fun r _ => ?_
  rw [val_main_v1_apply]
  exact congrArg x1 (funext fun a => Fin.ext (by match a with | ⟨0, _⟩ => rfl | ⟨1, _⟩ => rfl | ⟨2, _⟩ => rfl))

/-- dinv of graph b at node c (layer 1's copy). -/
theorem dinv1 (b : Fin 16) (c : Fin 512) : val_main_v6 (F := Ideal) x1 (ix2 b c) = dinv (fun r c' => x1 (ix3 b r c')) c := by
  have hz : val_main_call0_v1 (F := Ideal) (ix2 b c) = 0 := by
    rw [val_main_call0_v1_apply, val_main_call0_v0_apply, val_main_cst_1_apply]; exact Ideal.ofBits_zero_f32
  have hz3 : val_main_v3 (F := Ideal) (ix2 b c) = 0 := by
    rw [val_main_v3_apply, val_main_cst_0_apply]; exact Ideal.ofBits_zero_f32
  rw [val_main_v6_apply, val_main_v4_apply, val_main_v5_apply, deg1, hz, hz3]
  rfl

/-- The normalised adjacency at (b, c, k): dinv c · A (k, c) · dinv k (layer 1's copy). -/
theorem norm1 (b : Fin 16) (c k : Fin 512) : val_main_v12 (F := Ideal) x1 (ix3 b c k)
    = (dinv (fun r c' => x1 (ix3 b r c')) c * x1 (ix3 b k c)) * dinv (fun r c' => x1 (ix3 b r c')) k := by
  rw [val_main_v12_apply, val_main_v9_apply, val_main_v8_apply, val_main_v7_apply, val_main_v11_apply, val_main_v10_apply, val_main_v1_apply]
  rw [show idx_main_v7 (idx_main_v8 (ix3 b c k)) = ix2 b c from funext fun a => Fin.ext (by match a with | ⟨0, _⟩ => rfl | ⟨1, _⟩ => rfl),
    show idx_main_v10 (idx_main_v11 (ix3 b c k)) = ix2 b k from funext fun a => Fin.ext (by match a with | ⟨0, _⟩ => rfl | ⟨1, _⟩ => rfl),
    show idx_main_v1 (ix3 b c k) = ix3 b k c from funext fun a => Fin.ext (by match a with | ⟨0, _⟩ => rfl | ⟨1, _⟩ => rfl | ⟨2, _⟩ => rfl),
    dinv1, dinv1]
  rfl

/-- The column sums of graph b's adjacency (layer 2's copy): the transposed array summed along its last axis, from zero. -/
theorem deg2 (b : Fin 16) (c : Fin 512) : val_main_v20 (F := Ideal) x1 (ix2 b c) = ∑ r : Fin 512, x1 (ix3 b r c) := by
  rw [val_main_v20_apply, val_main_cst_2_apply]
  show Ideal.ofBits .f32 0x00000000#32 + _ = _
  rw [Ideal.ofBits_zero_f32, zero_add]
  refine Finset.sum_congr rfl fun r _ => ?_
  rw [val_main_v19_apply]
  exact congrArg x1 (funext fun a => Fin.ext (by match a with | ⟨0, _⟩ => rfl | ⟨1, _⟩ => rfl | ⟨2, _⟩ => rfl))

/-- dinv of graph b at node c (layer 2's copy). -/
theorem dinv2 (b : Fin 16) (c : Fin 512) : val_main_v24 (F := Ideal) x1 (ix2 b c) = dinv (fun r c' => x1 (ix3 b r c')) c := by
  have hz : val_main_call2_v1 (F := Ideal) (ix2 b c) = 0 := by
    rw [val_main_call2_v1_apply, val_main_call2_v0_apply, val_main_cst_4_apply]; exact Ideal.ofBits_zero_f32
  have hz3 : val_main_v21 (F := Ideal) (ix2 b c) = 0 := by
    rw [val_main_v21_apply, val_main_cst_3_apply]; exact Ideal.ofBits_zero_f32
  rw [val_main_v24_apply, val_main_v22_apply, val_main_v23_apply, deg2, hz, hz3]
  rfl

/-- The normalised adjacency at (b, c, k): dinv c · A (k, c) · dinv k (layer 2's copy). -/
theorem norm2 (b : Fin 16) (c k : Fin 512) : val_main_v30 (F := Ideal) x1 (ix3 b c k)
    = (dinv (fun r c' => x1 (ix3 b r c')) c * x1 (ix3 b k c)) * dinv (fun r c' => x1 (ix3 b r c')) k := by
  rw [val_main_v30_apply, val_main_v27_apply, val_main_v26_apply, val_main_v25_apply, val_main_v29_apply, val_main_v28_apply, val_main_v19_apply]
  rw [show idx_main_v25 (idx_main_v26 (ix3 b c k)) = ix2 b c from funext fun a => Fin.ext (by match a with | ⟨0, _⟩ => rfl | ⟨1, _⟩ => rfl),
    show idx_main_v28 (idx_main_v29 (ix3 b c k)) = ix2 b k from funext fun a => Fin.ext (by match a with | ⟨0, _⟩ => rfl | ⟨1, _⟩ => rfl),
    show idx_main_v19 (ix3 b c k) = ix3 b k c from funext fun a => Fin.ext (by match a with | ⟨0, _⟩ => rfl | ⟨1, _⟩ => rfl | ⟨2, _⟩ => rfl),
    dinv2, dinv2]
  rfl

/-! ## The first layer -/

/-- The projected features of graph b at (n, f). -/
theorem proj1 (b : Fin 16) (n : Fin 512) (f : Fin 64) :
    val_main_v0 (F := Ideal) x0 x2 (ix3 b n f) = projR (fun n j => x0 (ix3 b n j)) (fun j f' => x2 (ix2 j f')) n f := by
  rw [val_main_v0_apply]
  exact Finset.sum_congr rfl fun k _ => congrArg₂ (· * ·)
    (congrArg x0 (funext fun a => Fin.ext (by match a with | ⟨0, _⟩ => rfl | ⟨1, _⟩ => rfl | ⟨2, _⟩ => rfl))) (congrArg x2 (funext fun a => Fin.ext (by match a with | ⟨0, _⟩ => rfl | ⟨1, _⟩ => rfl)))

/-- The first layer's output of graph b at (c, f). -/
theorem hidden (b : Fin 16) (c : Fin 512) (f : Fin 64) :
    val_main_v17 (F := Ideal) x0 x1 x2 x3 (ix3 b c f) = (layerR (fun r c' => x1 (ix3 b r c')) (fun f' => x3 (ix1 f')) (projR (fun n j => x0 (ix3 b n j)) (fun j f' => x2 (ix2 j f')))) c f := by
  have hz : val_main_call1_v0 (F := Ideal) (ix3 b c f) = 0 := by
    rw [val_main_call1_v0_apply, val_main_call1_cst_apply]; exact Ideal.ofBits_zero_f32
  have hb : val_main_v15 (F := Ideal) x3 (ix3 b c f) = x3 (ix1 f) := by
    rw [val_main_v15_apply, val_main_v14_apply]
    exact congrArg x3 (funext fun a => Fin.ext (by match a with | ⟨0, _⟩ => rfl))
  have hs : val_main_v13 (F := Ideal) x0 x1 x2 (ix3 b c f)
      = ∑ r : Fin 512, ((dinv (fun r c' => x1 (ix3 b r c')) c * x1 (ix3 b r c)) * dinv (fun r c' => x1 (ix3 b r c')) r) * (projR (fun n j => x0 (ix3 b n j)) (fun j f' => x2 (ix2 j f'))) r f := by
    rw [val_main_v13_apply]
    refine Finset.sum_congr rfl fun k _ => ?_
    rw [show lidx_main_v13 (ix3 b c f) k = ix3 b c k from funext fun a => Fin.ext (by match a with | ⟨0, _⟩ => rfl | ⟨1, _⟩ => rfl | ⟨2, _⟩ => rfl),
      show ridx_main_v13 (ix3 b c f) k = ix3 b k f from funext fun a => Fin.ext (by match a with | ⟨0, _⟩ => rfl | ⟨1, _⟩ => rfl | ⟨2, _⟩ => rfl), norm1, proj1]
  rw [val_main_v17_apply, val_main_v16_apply, hs, hb, hz]
  rfl

/-! ## The second layer -/

/-- The second projection of graph b at (c, g). -/
theorem proj2 (b : Fin 16) (c : Fin 512) (g : Fin 64) :
    val_main_v18 (F := Ideal) x0 x1 x2 x3 x4 (ix3 b c g) = ∑ f : Fin 64, (layerR (fun r c' => x1 (ix3 b r c')) (fun f' => x3 (ix1 f')) (projR (fun n j => x0 (ix3 b n j)) (fun j f' => x2 (ix2 j f')))) c f * x4 (ix2 f g) := by
  rw [val_main_v18_apply]
  refine Finset.sum_congr rfl fun k _ => ?_
  rw [show lidx_main_v18 (ix3 b c g) k = ix3 b c k from funext fun a => Fin.ext (by match a with | ⟨0, _⟩ => rfl | ⟨1, _⟩ => rfl | ⟨2, _⟩ => rfl),
    show ridx_main_v18 (ix3 b c g) k = ix2 k g from funext fun a => Fin.ext (by match a with | ⟨0, _⟩ => rfl | ⟨1, _⟩ => rfl), hidden]

/-- The result of graph b at (c, g): the node-major two-layer network. -/
theorem out_apply (b : Fin 16) (c : Fin 512) (g : Fin 64) :
    val_main_v35 (F := Ideal) x0 x1 x2 x3 x4 x5 (ix3 b c g) = outR x1 x0 x2 x3 x4 x5 b c g := by
  have hz : val_main_call3_v0 (F := Ideal) (ix3 b c g) = 0 := by
    rw [val_main_call3_v0_apply, val_main_call3_cst_apply]; exact Ideal.ofBits_zero_f32
  have hb : val_main_v33 (F := Ideal) x5 (ix3 b c g) = x5 (ix1 g) := by
    rw [val_main_v33_apply, val_main_v32_apply]
    exact congrArg x5 (funext fun a => Fin.ext (by match a with | ⟨0, _⟩ => rfl))
  have hs : val_main_v31 (F := Ideal) x0 x1 x2 x3 x4 (ix3 b c g)
      = ∑ r : Fin 512, ((dinv (fun r c' => x1 (ix3 b r c')) c * x1 (ix3 b r c)) * dinv (fun r c' => x1 (ix3 b r c')) r) * (∑ f : Fin 64, (layerR (fun r c' => x1 (ix3 b r c')) (fun f' => x3 (ix1 f')) (projR (fun n j => x0 (ix3 b n j)) (fun j f' => x2 (ix2 j f')))) r f * x4 (ix2 f g)) := by
    rw [val_main_v31_apply]
    refine Finset.sum_congr rfl fun k _ => ?_
    rw [show lidx_main_v31 (ix3 b c g) k = ix3 b c k from funext fun a => Fin.ext (by match a with | ⟨0, _⟩ => rfl | ⟨1, _⟩ => rfl | ⟨2, _⟩ => rfl),
      show ridx_main_v31 (ix3 b c g) k = ix3 b k g from funext fun a => Fin.ext (by match a with | ⟨0, _⟩ => rfl | ⟨1, _⟩ => rfl | ⟨2, _⟩ => rfl), norm2, proj2]
  rw [val_main_v35_apply, val_main_v34_apply, hs, hb, hz]
  rfl

/-- THE REFERENCE'S RESULT is the node-major result array of its arguments. -/
theorem result_eq : val_main_v35 (F := Ideal) x0 x1 x2 x3 x4 x5 = arrR x1 x0 x2 x3 x4 x5 := by
  funext i
  obtain ⟨b, c, g, rfl⟩ : ∃ (b : Fin 16) (c : Fin 512) (g : Fin 64), i = ix3 b c g := ⟨i 0, i 1, i 2, eq_ix3 i⟩
  rw [out_apply]
  rfl

end Cert.ReferenceIdeal.ArrayValue

end
-- ==== Proof.LibFiniteMax.lean ====
/-
  Finite entries, clips and maxima on the extended reals. Library imports only.

  * The words of `+inf` and `-inf` denote `⊤` and `⊥`.
  * An extended real that the comparison `|x| < +inf` accepts — `max x (-x)` compared with the word of `+inf`, the
    element test of a "every input is finite" precondition — is a real number.
  * A value clipped into a real interval, `min hi (max lo r)`, is a real number whatever `r` is.
  * The maximum, taken from `⊥`, of a nonempty finite family of real numbers is a real number (a row's or an
    array's largest absolute value, as a quantizer's scale takes it).
  * The absolute value `max x (-x)` of a real number is a real number.
  "Is a real number" is stated as `∃ a : ℝ, x = ↑a`.
-/
import Idealize.ShloMosaic.PureOps.Ideal
import Mathlib.Data.EReal.Basic
import Mathlib.Data.EReal.Operations
import Mathlib.Data.Finset.Fold
import Mathlib.Tactic

noncomputable section

namespace Cert.LibFiniteMax

open Idealize.ShloMosaic

/-- The word of `+inf` denotes `⊤`. -/
theorem ofBits_pos_inf : Ideal.ofBits .f32 0x7F800000#32 = ⊤ := by
  simp [Ideal.ofBits, Ideal.ieee]

/-- The word of `-inf` denotes `⊥`. -/
theorem ofBits_neg_inf : Ideal.ofBits .f32 0xFF800000#32 = ⊥ := by
  simp [Ideal.ofBits, Ideal.ieee]

/-- A value that is neither infinity is a real number. -/
theorem real_of_ne {x : EReal} (h1 : x ≠ ⊤) (h2 : x ≠ ⊥) : ∃ a : ℝ, x = (a : EReal) :=
  ⟨x.toReal, (EReal.coe_toReal h1 h2).symm⟩

/-- A value whose absolute value `max x (-x)` is below `⊤` is a real number. -/
theorem real_of_abs_lt_top {x : EReal} (h : max x (-x) < ⊤) : ∃ a : ℝ, x = (a : EReal) := by
  have h1 : x < ⊤ := lt_of_le_of_lt (le_max_left _ _) h
  have h2 : -x < ⊤ := lt_of_le_of_lt (le_max_right _ _) h
  refine real_of_ne (ne_of_lt h1) ?_
  rintro rfl
  simp at h2

/-- An entry that the comparison `|x| < +inf` accepts is a real number. -/
theorem real_of_lt_inf {x : EReal}
    (h : Ideal.cmp .olt (max x (-x)) (Ideal.ofBits .f32 0x7F800000#32) = 1#1) : ∃ a : ℝ, x = (a : EReal) := by
  rw [ofBits_pos_inf] at h
  apply real_of_abs_lt_top
  by_contra hc
  have : Ideal.cmp .olt (max x (-x)) ⊤ = 0#1 := by
    unfold Ideal.cmp
    simp only [decide_eq_false hc]
    rfl
  rw [this] at h
  exact absurd h (by decide)

/-- A value clipped into the real interval [lo, hi] is a real number. -/
theorem clip_real (lo hi : ℝ) (hle : lo ≤ hi) (r : EReal) :
    ∃ a : ℝ, min (hi : EReal) (max (lo : EReal) r) = (a : EReal) := by
  apply real_of_ne
  · exact ne_of_lt (lt_of_le_of_lt (min_le_left _ _) (EReal.coe_lt_top _))
  · exact ne_of_gt (lt_of_lt_of_le (EReal.bot_lt_coe _)
      (le_min (EReal.coe_le_coe_iff.2 hle) (le_max_left _ _)))

/-- The maximum, from `⊥`, of a nonempty finite family of real numbers is a real number. -/
theorem fold_max_real {ι : Type*} (S : Finset ι) (f : ι → EReal) (hne : S.Nonempty)
    (hf : ∀ i ∈ S, ∃ a : ℝ, f i = (a : EReal)) : ∃ a : ℝ, S.fold max ⊥ f = (a : EReal) := by
  apply real_of_ne
  · apply ne_of_lt
    rw [Finset.fold_max_lt]
    refine ⟨bot_lt_top, fun i hi => ?_⟩
    obtain ⟨a, ha⟩ := hf i hi
    rw [ha]; exact EReal.coe_lt_top a
  · apply ne_of_gt
    rw [Finset.lt_fold_max]
    obtain ⟨i, hi⟩ := hne
    obtain ⟨a, ha⟩ := hf i hi
    exact Or.inr ⟨i, hi, by rw [ha]; exact EReal.bot_lt_coe a⟩

/-- The absolute value of a real number is a real number. -/
theorem abs_real {x : EReal} (hx : ∃ a : ℝ, x = (a : EReal)) : ∃ a : ℝ, max x (-x) = (a : EReal) := by
  obtain ⟨a, rfl⟩ := hx
  rcases le_total (a : EReal) (-(a : EReal)) with h | h
  · rw [max_eq_right h]; exact ⟨-a, (EReal.coe_neg a).symm⟩
  · rw [max_eq_left h]; exact ⟨a, rfl⟩

end Cert.LibFiniteMax

end
-- ==== Proof.Finite.lean ====
/-
  From the precondition to real numbers.

  The precondition is the conjunction, over the six argument arrays, of "every entry x has |x| < +inf", each conjunct
  computed as a reduction by "and" of the entrywise comparison. Where the whole word is one, every conjunct is one, so
  every comparison is one, so every entry is neither infinity: a real number.
-/
import proofs.«136823_g57208964383454_cont_9to1_m_350_27_alg».proof.Pre_finite_inputs
import proofs.«136823_g57208964383454_cont_9to1_m_350_27_alg».proof.Proof.Gen.Pre_finite_inputs
import proofs.«136823_g57208964383454_cont_9to1_m_350_27_alg».proof.Proof.LibFiniteMax
import proofs.«136823_g57208964383454_cont_9to1_m_350_27_alg».proof.Proof.LibMoment
import Idealize.ShloMosaic.Lib.ReduceAll
import Idealize.ShloMosaic.Lib.ValueIdx
import Idealize.ShloMosaic.Lib.Affine

noncomputable section

namespace Cert.FiniteInputs

open Cert.Pre_finite_inputs Idealize.ShloMosaic Cert.LibMoment

instance : Subsingleton S_.Idx := ⟨fun a b => funext fun d => d.elim0⟩

/-- One conjunct: where the reduction by "and" of the test |x| < +inf is one, every entry is a real number. -/
theorem real_of_all {s : Shape} {axes : List (Fin s.rank)} (a : FVec Ideal s .f32) (bc : FVec Ideal s .f32)
    (hbc : ∀ i, bc i = Ideal.ofBits .f32 0x7F800000#32) (h : s.ReducesTo axes S_) (hu : 0 < S_.numel)
    (e : Host.reduce IntOp.andi (cmpf .olt (Host.absf a) bc) (constantI S_ 1 1#1) h hu ValueIdx.ix0 = 1#1) (i : s.Idx) :
    IsReal (a i) := by
  have hi := Host.reduce_andi_all (cmpf .olt (Host.absf a) bc) (constantI S_ 1 1#1) h hu ValueIdx.ix0 e i
  have hi' : Ideal.cmp .olt (max (a i) (-(a i))) (Ideal.ofBits .f32 0x7F800000#32) = 1#1 := by
    rw [← hbc i]; exact hi
  exact Cert.LibFiniteMax.real_of_lt_inf hi'

/-- Where the precondition's word is one, every entry of each of the six argument arrays is a real number. -/
theorem reals_of_pre (a0 : FVec Ideal S16x512x128 .f32) (a1 : FVec Ideal S16x512x512 .f32) (a2 : FVec Ideal S128x64 .f32)
    (a3 : FVec Ideal S64 .f32) (a4 : FVec Ideal S64x64 .f32) (a5 : FVec Ideal S64 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1] at h0
  obtain ⟨h01234, e5⟩ := IntOp.andi_eq_one.mp h0
  obtain ⟨h0123, e4⟩ := IntOp.andi_eq_one.mp h01234
  obtain ⟨h012, e3⟩ := IntOp.andi_eq_one.mp h0123
  obtain ⟨h01, e2⟩ := IntOp.andi_eq_one.mp h012
  obtain ⟨e0, e1⟩ := IntOp.andi_eq_one.mp h01
  exact ⟨real_of_all a0 _ (fun _ => rfl) _ _ e0, real_of_all a1 _ (fun _ => rfl) _ _ e1, real_of_all a2 _ (fun _ => rfl) _ _ e2,
    real_of_all a3 _ (fun _ => rfl) _ _ e3, real_of_all a4 _ (fun _ => rfl) _ _ e4, real_of_all a5 _ (fun _ => rfl) _ _ e5⟩

end Cert.FiniteInputs

end
-- ==== Proof.lean ====
/-
  Two graph-convolution layers over sixteen dense graphs: the fused kernel against the edge-wise reference.

  For one graph with adjacency A (512 × 512) the degree of node c is the column sum deg c = Σ_r A (r, c), and dinv c is
  deg c to the power -1/2 where deg c is positive and zero elsewhere. A layer maps node features v and a bias b to
  max (Σ_r dinv c · A (r, c) · dinv r · v (r, f) + b f, 0). The reference builds the normalised adjacency
  dinv c · A (r, c) · dinv r and multiplies it into the features. The kernel never builds it: it works in the transposed
  layout (features × nodes), scales the columns by dinv, multiplies by A, scales the columns by dinv again; it handles eight
  graphs per grid point, and the weights enter its products in the other order.

  On the extended reals the two agree where the common factor dinv c may be taken out of the sum over r, and that needs
  every quantity to be a real number. The precondition makes every input entry real; the degrees are then real sums, dinv
  is the inverse square root of a positive real or zero, and every later stage is a sum, product or maximum of reals. A
  change of float format is the identity, a matrix product into a zero accumulator is the plain sum, so nothing else
  separates the two programs.

  Modules: Spec (the two arrangements of a layer and of the network on abstract index types, and the law), Arrays (the two
  result arrays over the six argument arrays), PerGraph (one graph's share of the kernel body as one function, and the
  output block as eight pieces of it), GraphAt (that function read at an index), KernelValue (from the blocks to the
  kernel's result array, and its run), RefValue (the reference's stages read at an index up to its result array),
  Finite (from the precondition to real entries); here the five conjuncts are assembled. The frames of the two kernel
  programs are the generated ones; the reference's frame is its generated run with the result dropped; the idealisation
  rewrote nothing, so there is nothing to preserve.
-/
import proofs.«136823_g57208964383454_cont_9to1_m_350_27_alg».proof.Defs
import proofs.«136823_g57208964383454_cont_9to1_m_350_27_alg».proof.Proof.Gen.Kernel
import proofs.«136823_g57208964383454_cont_9to1_m_350_27_alg».proof.Proof.Gen.Kernel.Frame
import proofs.«136823_g57208964383454_cont_9to1_m_350_27_alg».proof.Proof.Gen.KernelIdeal
import proofs.«136823_g57208964383454_cont_9to1_m_350_27_alg».proof.Proof.Gen.KernelIdeal.Frame
import proofs.«136823_g57208964383454_cont_9to1_m_350_27_alg».proof.Proof.Gen.ReferenceIdeal
import proofs.«136823_g57208964383454_cont_9to1_m_350_27_alg».proof.Proof.Gen.Pre_finite_inputs
import proofs.«136823_g57208964383454_cont_9to1_m_350_27_alg».proof.Proof.Gen.KernelIdeal.Value
import proofs.«136823_g57208964383454_cont_9to1_m_350_27_alg».proof.Proof.Gen.ReferenceIdeal.Run
import proofs.«136823_g57208964383454_cont_9to1_m_350_27_alg».proof.Proof.Gen.ReferenceIdeal.Read
import proofs.«136823_g57208964383454_cont_9to1_m_350_27_alg».proof.Proof.KernelValue
import proofs.«136823_g57208964383454_cont_9to1_m_350_27_alg».proof.Proof.RefValue
import proofs.«136823_g57208964383454_cont_9to1_m_350_27_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel ends at the feature-major result array of its arguments, the reference at the node-major one of arguments
    that agree with them; under the precondition every argument entry is real, and on real data the two arrays are one. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.ArrayValue.result_eq, (hagree c).1, (hagree c).2.1,
    (hagree c).2.2.1, (hagree c).2.2.2.1, (hagree c).2.2.2.2.1, (hagree c).2.2.2.2.2]
  obtain ⟨r0, r1, r2, r3, r4, r5⟩ := Cert.FiniteInputs.reals_of_pre _ _ _ _ _ _ (hpre c)
  exact (Cert.GcnArrays.arrK_eq_arrR _ r1 r0 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
